-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x2 : Shape := ⟨2, ![100000, 2]⟩
abbrev S2x64 : Shape := ⟨2, ![2, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S2x1600000 32) (main_arg1 : FVec F S100000x2 .f32) (main_arg2 : FVec F S2x64 .f32) (main_arg3 : FVec F S64 .f32) (main_arg4 : FVec F S64x128 .f32) (main_arg5 : FVec F S128 .f32) : IVec S_ 1 :=
  let main_v0 : FVec F S100000x2 .f32 := Host.absf main_arg1
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg2
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S2x1600000 : Shape := ⟨2, ![2, 1600000]⟩
abbrev S100000x2 : Shape := ⟨2, ![100000, 2]⟩
abbrev S2x64 : Shape := ⟨2, ![2, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x2 : Shape := ⟨2, ![1700000, 2]⟩
abbrev S1x64 : Shape := ⟨2, ![1, 64]⟩
abbrev S100000x64 : Shape := ⟨2, ![100000, 64]⟩
abbrev S10000x2 : Shape := ⟨2, ![10000, 2]⟩
abbrev S10000x64 : Shape := ⟨2, ![10000, 64]⟩
abbrev S1700000x64 : Shape := ⟨2, ![1700000, 64]⟩
abbrev S1x128 : Shape := ⟨2, ![1, 128]⟩
abbrev S100000x128 : Shape := ⟨2, ![100000, 128]⟩
abbrev S10000x128 : Shape := ⟨2, ![10000, 128]⟩

abbrev nBuf : Space → Nat
  | .hbm => 78
  | .vmem => 12
  | .smem => 0
  | _ => 0

abbrev bufTy : (tb : Table) → Fin (tcTables nBuf tb) → BufTy
  | .hbm, ⟨0, _⟩ => ⟨S2x1600000, .i32⟩
  | .hbm, ⟨1, _⟩ => ⟨S100000x2, .f32⟩
  | .hbm, ⟨2, _⟩ => ⟨S2x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x2, .f32⟩
  | .hbm, ⟨51, _⟩ => ⟨S1700000x1, .f32⟩
  | .hbm, ⟨52, _⟩ => ⟨S1700000x2, .f32⟩
  | .hbm, ⟨53, _⟩ => ⟨S1700000x2, .f32⟩
  | .hbm, ⟨54, _⟩ => ⟨S_, .f32⟩
  | .hbm, ⟨55, _⟩ => ⟨S100000x2, .f32⟩
  | .hbm, ⟨56, _⟩ => ⟨S1700000x1, .i32⟩
  | .hbm, ⟨57, _⟩ => ⟨S100000x2, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x64, .f32⟩
  | .hbm, ⟨69, _⟩ => ⟨S1700000x1, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1x128, .f32⟩
  | .hbm, ⟨77, _⟩ => ⟨S100000x128, .f32⟩
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  shapeCasts_S64_S1x64 : S64.ShapeCasts S1x64
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S128_S1x128 : S128.ShapeCasts S1x128
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  dot_S10000x2_S2x64_S10000x64_1_0_0_1_n_n_wf : DotDims.WF S10000x2 S2x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_v41) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x1600000 : Shape := ⟨2, ![2, 1600000]⟩
abbrev S100000x2 : Shape := ⟨2, ![100000, 2]⟩
abbrev S2x64 : Shape := ⟨2, ![2, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x2, .f32⟩
  | .hbm, ⟨2, _⟩ => ⟨S2x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S_, .f32⟩
  | .hbm, ⟨64, _⟩ => ⟨S100000x64, .f32⟩
  | .hbm, ⟨65, _⟩ => ⟨S100000x64, .i1⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S_, .f32⟩
  | .hbm, ⟨92, _⟩ => ⟨S100000x128, .f32⟩
  | .hbm, ⟨93, _⟩ => ⟨S100000x128, .i1⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v64 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x2_S2x64_S100000x64_1_0_0_1_n_n_wf : DotDims.WF S100000x2 S2x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named.

  The program is two pipelined regions among two stretches of host operations.  Every weakly fair execution
  from a memory `m` terminates without a fault, and in the final state each core's unscoped buffers hold the
  contents obtained by folding the four segments over `m`: host operations applied in order, and at each
  region the region's arrays replaced by what its write-backs leave.  Read at the result buffer this gives
  the result as that fold's value; read at the six arguments it gives them back unchanged.
-/
import proofs.«150885_j26809185861879_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the segments' fold read
    at it, and the six argument arrays end as launched. -/
theorem run_main : θ_run defs (onTc (τ := τ) (main (F := F))) ⟨m, fun _ => 0, ρ⟩ (fun r => ∀ c : Dev nD,
      r.2.mem ((c.tc : Thread nD τ).loc main_v58) = W4 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v58 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«150885_j26809185861879_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibLayers.lean ====
/-
  General definitions and lemmas: the layers of a graph convolution, as functions of whole arrays of extended reals.

  A layer multiplies the features by a weight matrix, multiplies the adjacency matrix by the result and adds a
  bias to every row: `A · (H · W) + b`.  Between layers every entry is replaced by its maximum with zero.
  All of it is row-wise in the adjacency matrix: row `r` of the result depends on `A` only through row `r` of `A`.
  So any selection of rows of `A` (a block of consecutive rows, in particular) gives the same selection of rows of
  the result — which is what lets a result computed block of rows by block of rows be read as one array.
-/
import Idealize.ShloMosaic.Lib.Pipeline.Value
import Idealize.ShloMosaic.Lib.ValueIdx
import proofs.«150885_j26809185861879_2_alg».proof.Proof.LibMatmulRead

open scoped BigOperators

noncomputable section

namespace Cert.Layers

open Idealize.ShloMosaic Idealize.ShloMosaic.ValueIdx Cert.GCN

/-- A one-axis array of extended reals. -/
abbrev Row (p : Nat) := (⟨1, ![p]⟩ : Shape).Idx → EReal

/-- A vector laid out as the single row of a `[1, p]` array. -/
def asRow {p : Nat} (b : Row p) : Arr 1 p := fun i => b (ix1 (i 1))

/-- A one-row array added to every row. -/
def addRow {n p : Nat} (X : Arr n p) (b : Arr 1 p) : Arr n p := fun i => X i + b (ix2 (0 : Fin 1) (i 1))

/-- Every entry replaced by its maximum with zero. -/
def relu {n p : Nat} (X : Arr n p) : Arr n p := fun i => max (X i) 0

theorem addRow_apply {n p : Nat} (X : Arr n p) (b : Arr 1 p) (r : Fin n) (c : Fin p) :
    addRow X b (ix2 r c) = X (ix2 r c) + b (ix2 (0 : Fin 1) c) := rfl

theorem relu_apply {n p : Nat} (X : Arr n p) (r : Fin n) (c : Fin p) : relu X (ix2 r c) = max (X (ix2 r c)) 0 := rfl

/-- The features handed to the next layer: `max (A · S + b, 0) · W`, where `S` is the previous product. -/
def hidden {n k q p : Nat} (A : Arr n k) (S : Arr k q) (b : Arr 1 q) (W : Arr q p) : Arr n p :=
  mm (relu (addRow (mm A S) b)) W

/-- The last layer's result: `A · S + b`. -/
def affine {n k p : Nat} (A : Arr n k) (S : Arr k p) (b : Arr 1 p) : Arr n p := addRow (mm A S) b

/-! ## Rows of the result come from the same rows of the left factor -/

section Rows

variable {N n : Nat} (f : Fin n → Fin N)

theorem mm_rows {k p : Nat} (A : Arr N k) (A' : Arr n k) (B : Arr k p)
    (h : ∀ r d, A' (ix2 r d) = A (ix2 (f r) d)) (r : Fin n) (c : Fin p) :
    mm A' B (ix2 r c) = mm A B (ix2 (f r) c) := by
  rw [mm_apply, mm_apply]
  exact Finset.sum_congr rfl fun d _ => by rw [h r d]

theorem addRow_rows {p : Nat} (X : Arr N p) (X' : Arr n p) (b : Arr 1 p)
    (h : ∀ r c, X' (ix2 r c) = X (ix2 (f r) c)) (r : Fin n) (c : Fin p) :
    addRow X' b (ix2 r c) = addRow X b (ix2 (f r) c) := by
  rw [addRow_apply, addRow_apply, h r c]

theorem relu_rows {p : Nat} (X : Arr N p) (X' : Arr n p)
    (h : ∀ r c, X' (ix2 r c) = X (ix2 (f r) c)) (r : Fin n) (c : Fin p) :
    relu X' (ix2 r c) = relu X (ix2 (f r) c) := by
  rw [relu_apply, relu_apply, h r c]

theorem hidden_rows {k q p : Nat} (A : Arr N k) (A' : Arr n k) (S : Arr k q) (b : Arr 1 q) (W : Arr q p)
    (h : ∀ r d, A' (ix2 r d) = A (ix2 (f r) d)) (r : Fin n) (c : Fin p) :
    hidden A' S b W (ix2 r c) = hidden A S b W (ix2 (f r) c) :=
  mm_rows f _ _ W (relu_rows f _ _ (addRow_rows f _ _ b (mm_rows f A A' S h))) r c

theorem affine_rows {k p : Nat} (A : Arr N k) (A' : Arr n k) (S : Arr k p) (b : Arr 1 p)
    (h : ∀ r d, A' (ix2 r d) = A (ix2 (f r) d)) (r : Fin n) (c : Fin p) :
    affine A' S b (ix2 r c) = affine A S b (ix2 (f r) c) :=
  addRow_rows f _ _ b (mm_rows f A A' S h) r c

end Rows

/-! ## A one-row array spread over all rows, read at an entry -/

/-- A `[1, b]` array broadcast to `[a, b]` reads, at `(i, j)`, its only row at `j`. -/
theorem broadcastTo_row_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.Layers

end
-- ==== Proof.LibLayerOps.lean ====
/-
  General lemmas: the operations of a dense layer, as a kernel body and as the host spell them, read as whole
  arrays at the ideal values.

  In a kernel body: a plain matrix product into the zero accumulator is the matrix product; adding a one-row array
  spread over the rows adds that row to every row; the maximum with the zero splat is the maximum with zero.
  On the host: a plain `dot_general` is the matrix product; a bias vector is added to every row by broadcasting it
  first to one row and then over all rows; the maximum with zero is taken against a broadcast scalar zero; and a
  vector reshaped to one row is that vector as a row.
-/
import Idealize.ShloMosaic.Lib.Pipeline.Value
import Idealize.ShloMosaic.Lib.ValueIdx
import Idealize.ShloMosaic.PureOps.Ideal.Laws
import proofs.«150885_j26809185861879_2_alg».proof.Proof.LibLayers

noncomputable section

namespace Cert.LayerOps

open Idealize.ShloMosaic Idealize.ShloMosaic.ValueIdx Cert.GCN Cert.Layers

/-- A plain matrix product into the zero accumulator is the product of its operands, as whole arrays. -/
theorem matmul_zero_eq_mm {M K N : Nat} {φ₁ φ₂ : FTy} (prec : Option ContractPrecision)
    (l : FVec Ideal ⟨2, ![M, K]⟩ φ₁) (w : FVec Ideal ⟨2, ![K, N]⟩ φ₂) :
    (FloatOps.matmul (DotDims.plain M K N) prec l w (constant ⟨2, ![M, N]⟩ .f32 0x00000000#32) : Arr M N) = mm l w := by
  funext i
  rw [eq_ix2 i]
  exact matmul_plain_zero_apply prec l w (i 0) (i 1)

/-- Adding a one-row array spread over the rows adds that row to every row. -/
theorem addf_row {a b : Nat} (X : FVec Ideal ⟨2, ![a, b]⟩ .f32) (v : FVec Ideal ⟨2, ![1, b]⟩ .f32)
    (h : (⟨2, ![1, b]⟩ : Shape).Broadcasts ⟨2, ![a, b]⟩) :
    (addf X (broadcastTo ⟨2, ![a, b]⟩ v h) : Arr a b) = addRow X v := by
  funext i
  rw [eq_ix2 i]
  exact congrArg (X (ix2 (i 0) (i 1)) + ·) (broadcastTo_row_apply v h (i 0) (i 1))

/-- The maximum with the zero splat is the maximum with zero. -/
theorem maximumf_zero {a b : Nat} (X : FVec Ideal ⟨2, ![a, b]⟩ .f32) :
    (maximumf X (broadcast ⟨2, ![a, b]⟩ (Scalar.ofBits (F := Ideal) .f32 0x00000000#32)) : Arr a b) = relu X := by
  funext i
  show max (X i) (Ideal.ofBits .f32 0x00000000#32) = max (X i) 0
  rw [Ideal.ofBits_zero_f32]

end Cert.LayerOps

namespace Cert.HostLayers

open Idealize.ShloMosaic Idealize.ShloMosaic.ValueIdx Cert.GCN Cert.Layers

/-- A plain `dot_general` on the host is the matrix product of its operands. -/
theorem hostDot_plain {M K N : Nat} (D : DotDims ⟨2, ![M, K]⟩ ⟨2, ![K, N]⟩ ⟨2, ![M, N]⟩) (hD : D = DotDims.plain M K N)
    (prec : Option ContractPrecision) (l : FVec Ideal ⟨2, ![M, K]⟩ .f32) (w : FVec Ideal ⟨2, ![K, N]⟩ .f32) :
    (Host.dotGeneral D prec l w : Arr M N) = mm l w := by
  subst hD
  exact hostDot_eq_mm prec .single l w

/-- A vector broadcast to one row and then over all rows reads, at `(r, c)`, the vector at `c`. -/
theorem bias_apply {n p : Nat} (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) (r : Fin n) (c : Fin p) :
    broadcastInDim ⟨2, ![n, p]⟩ ![0, 1] h2 (broadcastInDim ⟨2, ![1, p]⟩ ![1] h1 b) (ix2 r c) = b (ix1 c) := by
  refine (broadcastInDim_apply ![0, 1] h2 _ (ix2 r c) (ix2 (0 : Fin 1) c) fun a => ?_).trans ?_
  · match a with
    | ⟨0, _⟩ => rfl
    | ⟨1, _⟩ =>
      show c.val = if p = 1 then 0 else c.val
      split
      · have := c.isLt; omega
      · rfl
  · refine broadcastInDim_apply ![1] h1 b (ix2 (0 : Fin 1) c) (ix1 c) fun a => ?_
    match a with
    | ⟨0, _⟩ =>
      show c.val = if p = 1 then 0 else c.val
      split
      · have := c.isLt; omega
      · rfl

/-- Adding that broadcast to an array adds the vector, as a row, to every row. -/
theorem host_addRow {n p : Nat} (X : FVec Ideal ⟨2, ![n, p]⟩ .f32) (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) :
    (addf X (broadcastInDim ⟨2, ![n, p]⟩ ![0, 1] h2 (broadcastInDim ⟨2, ![1, p]⟩ ![1] h1 b)) : Arr n p)
      = addRow X (asRow b) := by
  funext i
  rw [eq_ix2 i]
  exact congrArg (X (ix2 (i 0) (i 1)) + ·) (bias_apply b h1 h2 (i 0) (i 1))

/-- The maximum with the broadcast scalar zero is the maximum with zero. -/
theorem host_relu {n p : Nat} (X : FVec Ideal ⟨2, ![n, p]⟩ .f32)
    (h : (⟨0, ![]⟩ : Shape).BroadcastsInDim ⟨2, ![n, p]⟩ ![]) :
    (maximumf X (broadcastInDim ⟨2, ![n, p]⟩ ![] h (constant (F := Ideal) ⟨0, ![]⟩ .f32 0x00000000#32)) : Arr n p) = relu X := by
  funext i
  show max (X i) (broadcastInDim ⟨2, ![n, p]⟩ ![] h (constant (F := Ideal) ⟨0, ![]⟩ .f32 0x00000000#32) i) = max (X i) 0
  rw [broadcastInDim_apply ![] h _ i ix0 (fun a => a.elim0)]
  show max (X i) (Ideal.ofBits .f32 0x00000000#32) = _
  rw [Ideal.ofBits_zero_f32]

/-- A vector reshaped to one row is that vector as a row. -/
theorem reshape_asRow {p : Nat} (b : FVec Ideal ⟨1, ![p]⟩ .f32) (h : (⟨1, ![p]⟩ : Shape).ShapeCasts ⟨2, ![1, p]⟩) :
    (shapeCast ⟨2, ![1, p]⟩ b h : Arr 1 p) = asRow b := by
  funext i
  have h0 : (i 0).val < 1 := (i 0).isLt
  refine shapeCast_apply b h i (ix1 (i 1)) ?_
  rw [Shape.rowMajor_val_two, Shape.rowMajor_val_one]
  show (i 1).val = (i 0).val * p + (i 1).val
  have : (i 0).val = 0 := by omega
  rw [this, Nat.zero_mul, Nat.zero_add]

end Cert.HostLayers

end
-- ==== Proof.Layer.lean ====
/-
  One graph-convolution layer's dense stage as whole arrays of extended reals:
  `layer A W b = lrelu (A · W + b)`, the bias a single row added to every row and `lrelu` the leaky rectifier
  entry by entry (an entry that is at least zero is kept, any other is multiplied by the slope, the float word
  0x3C23D70A read as an extended real).  Rows of the result depend on the same rows of `A` only.
-/
import proofs.«150885_j26809185861879_2_alg».proof.Proof.LibLayerOps

noncomputable section

namespace Cert.Spec

open Idealize.ShloMosaic Idealize.ShloMosaic.ValueIdx Cert.GCN Cert.Layers

/-- The leaky rectifier on one extended real, spelt with the float comparison and selection as they read on the
    extended reals. -/
def lk (x : EReal) : EReal :=
  Scalar.select (FloatOps.cmpf (F := Ideal) (φ := .f32) .oge x (Ideal.ofBits .f32 0x00000000#32)) x
    (Ideal.ofBits .f32 0x3C23D70A#32 * x)

/-- The leaky rectifier entry by entry. -/
def lrelu {n p : Nat} (X : Arr n p) : Arr n p := fun i => lk (X i)

/-- The dense stage of one layer. -/
def layer {n k p : Nat} (A : Arr n k) (W : Arr k p) (b : Arr 1 p) : Arr n p := lrelu (addRow (mm A W) b)

theorem lrelu_apply {n p : Nat} (X : Arr n p) (i : (⟨2, ![n, p]⟩ : Shape).Idx) : lrelu X i = lk (X i) := rfl

/-- The rectifier as a vector program spells it (comparison with the splat zero, product with the splat slope,
    selection) is `lrelu`. -/
theorem lrelu_of_select {n p : Nat} (Y : FVec Ideal ⟨2, ![n, p]⟩ .f32) :
    (select (cmpf .oge Y (broadcast ⟨2, ![n, p]⟩ (Scalar.ofBits (F := Ideal) .f32 0x00000000#32))) Y
      (mulf (broadcast ⟨2, ![n, p]⟩ (Scalar.ofBits (F := Ideal) .f32 0x3C23D70A#32)) Y) : Arr n p) = lrelu Y := rfl

section Rows

variable {N n : Nat} (f : Fin n → Fin N)

theorem lrelu_rows {p : Nat} (X : Arr N p) (X' : Arr n p)
    (h : ∀ r c, X' (ix2 r c) = X (ix2 (f r) c)) (r : Fin n) (c : Fin p) :
    lrelu X' (ix2 r c) = lrelu X (ix2 (f r) c) := by
  rw [lrelu_apply, lrelu_apply, h r c]

/-- Row `r` of the layer of a row selection is row `f r` of the layer. -/
theorem layer_rows {k p : Nat} (A : Arr N k) (A' : Arr n k) (W : Arr k p) (b : Arr 1 p)
    (h : ∀ r d, A' (ix2 r d) = A (ix2 (f r) d)) (r : Fin n) (c : Fin p) :
    layer A' W b (ix2 r c) = layer A W b (ix2 (f r) c) :=
  lrelu_rows f _ _ (addRow_rows f _ _ b (mm_rows f A A' W h)) r c

end Rows

/-- A kernel body's stage — both operands passed through an identity cast and a change of float format, a plain
    matrix product into the zero accumulator, the one-row bias spread over the rows and added, the rectifier —
    is `layer` of what it loaded. -/
theorem body_eq_layer {M K P : Nat} (d : DotDims ⟨2, ![M, K]⟩ ⟨2, ![K, P]⟩ ⟨2, ![M, P]⟩) (hd : d = DotDims.plain M K P)
    (x0 : FVec Ideal ⟨2, ![M, K]⟩ .f32) (x1 : FVec Ideal ⟨2, ![K, P]⟩ .f32) (x2 : FVec Ideal ⟨2, ![1, P]⟩ .f32)
    (h0 : (⟨2, ![M, K]⟩ : Shape).ShapeCasts ⟨2, ![M, K]⟩) (h2 : (⟨2, ![1, P]⟩ : Shape).ShapeCasts ⟨2, ![1, P]⟩)
    (hb : (⟨2, ![1, P]⟩ : Shape).Broadcasts ⟨2, ![M, P]⟩) (hbits : FTy.bits .bf16 < FTy.bits .f32) :
    (select
      (cmpf .oge
        (addf (matmul d none (truncf .bf16 (shapeCast ⟨2, ![M, K]⟩ x0 h0) hbits) (truncf .bf16 x1 hbits)
            (constant ⟨2, ![M, P]⟩ .f32 0x00000000#32))
          (broadcastTo ⟨2, ![M, P]⟩ (shapeCast ⟨2, ![1, P]⟩ x2 h2) hb))
        (broadcast ⟨2, ![M, P]⟩ (Scalar.ofBits (F := Ideal) .f32 0x00000000#32)))
      (addf (matmul d none (truncf .bf16 (shapeCast ⟨2, ![M, K]⟩ x0 h0) hbits) (truncf .bf16 x1 hbits)
          (constant ⟨2, ![M, P]⟩ .f32 0x00000000#32))
        (broadcastTo ⟨2, ![M, P]⟩ (shapeCast ⟨2, ![1, P]⟩ x2 h2) hb))
      (mulf (broadcast ⟨2, ![M, P]⟩ (Scalar.ofBits (F := Ideal) .f32 0x3C23D70A#32))
        (addf (matmul d none (truncf .bf16 (shapeCast ⟨2, ![M, K]⟩ x0 h0) hbits) (truncf .bf16 x1 hbits)
            (constant ⟨2, ![M, P]⟩ .f32 0x00000000#32))
          (broadcastTo ⟨2, ![M, P]⟩ (shapeCast ⟨2, ![1, P]⟩ x2 h2) hb))) : Arr M P) = layer x0 x1 x2 := by
  subst hd
  rw [lrelu_of_select, shapeCast_self, shapeCast_self, Cert.LayerOps.addf_row]
  unfold layer
  congr 2
  exact Cert.LayerOps.matmul_zero_eq_mm none _ _

end Cert.Spec

end
-- ==== Proof.Region0.lean ====
/-
  Region 0 of the idealized kernel as one whole-array operation, on the extended reals.

  At every grid point the body loads a block of 10000 rows of the aggregated features, the whole weight matrix
  and the whole one-row bias, and stores `layer` of them into the block of the same 10000 rows of the output.
  Rows of `layer A W b` depend on the same rows of `A` only, so that block is the block of `layer` of the WHOLE
  arrays; the ten blocks tile the output's 100000 rows, so after the region the output array is
  `layer A W b` of the arrays the region found.
-/
import proofs.«150885_j26809185861879_2_alg».proof.Proof.Gen.KernelIdeal.Frame
import proofs.«150885_j26809185861879_2_alg».proof.Proof.Layer

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.GCN Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's stored value is `layer` of the three blocks it loaded. -/
theorem pay_eq (x0 : Vec Ideal S10000x2 .f32) (x1 : Vec Ideal S2x64 .f32) (x2 : Vec Ideal S1x64 .f32) :
    (k0_pay1 (F := Ideal) x0 x1 x2 : Arr 10000 64) = layer x0 x1 x2 :=
  body_eq_layer dot_S10000x2_S2x64_S10000x64_1_0_0_1_n_n rfl x0 x1 x2 _ _ _ _

/-- The output array after the region, as one function of the arrays the region finds. -/
abbrev G (c : Dev nD) : Arr 100000 64 := layer (V c main_v41) (V c main_arg2) (V c main_v42)

/-- The printed index maps over the grid: the feature and output blocks move down the rows with the point, the
    weight and bias blocks stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 10 := lt_of_lt_of_eq t.isLt N_0

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S10000x2) hz, View.ld_unit_zero (S := S2x64) hz, View.ld_unit_zero (S := S1x64) hz]
  obtain ⟨e0, e1, e2, e3, e4, e5, e6, e7⟩ := idx_facts t
  have ht := t_lt t
  funext j
  obtain ⟨r, q, rfl⟩ : ∃ (r : Fin 10000) (q : Fin 64), j = ix2 r q := ⟨j 0, j 1, eq_ix2 j⟩
  have hr : t.val * 10000 + r.val < 100000 := by have := r.isLt; omega
  show k0_pay1 (iblk0 V c 0 t) (iblk0 V c 1 t) (iblk0 V c 2 t) (ix2 r q)
    = layer (V c main_v41) (V c main_arg2) (V c main_v42) (((cfg0.win 3).blk t).view.emb (ix2 r q))
  refine (congrFun (pay_eq _ _ _) (ix2 r q)).trans ?_
  have hemb : ((cfg0.win 3).blk t).view.emb (ix2 r q) = ix2 (⟨t.val * 10000 + r.val, hr⟩ : Fin 100000) q := by
    funext a; apply Fin.ext
    match a with
    | ⟨0, _⟩ => show win0_3.index t (0 : Fin 2) * 10000 + 1 * r.val = t.val * 10000 + r.val; omega
    | ⟨1, _⟩ => show win0_3.index t (1 : Fin 2) * 64 + 1 * q.val = q.val; omega
  have hW : (iblk0 V c 1 t : Arr 2 64) = V c main_arg2 := by
    funext y
    show V c main_arg2 (((cfg0.win 1).blk t).view.emb y) = V c main_arg2 y
    refine congrArg _ (funext fun a => Fin.ext ?_)
    match a with
    | ⟨0, _⟩ => show win0_1.index t (0 : Fin 2) * 2 + 1 * (y 0).val = (y 0).val; omega
    | ⟨1, _⟩ => show win0_1.index t (1 : Fin 2) * 64 + 1 * (y 1).val = (y 1).val; omega
  have hB : (iblk0 V c 2 t : Arr 1 64) = V c main_v42 := by
    funext y
    show V c main_v42 (((cfg0.win 2).blk t).view.emb y) = V c main_v42 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  have hA : ∀ (r' : Fin 10000) (d : Fin 2) (h' : t.val * 10000 + r'.val < 100000),
      (iblk0 V c 0 t : Arr 10000 2) (ix2 r' d) = V c main_v41 (ix2 (⟨t.val * 10000 + r'.val, h'⟩ : Fin 100000) d) := by
    intro r' d h'
    show V c main_v41 (((cfg0.win 0).blk t).view.emb (ix2 r' d)) = _
    refine congrArg _ (funext fun a => Fin.ext ?_)
    match a with
    | ⟨0, _⟩ => show win0_0.index t (0 : Fin 2) * 10000 + 1 * r'.val = t.val * 10000 + r'.val; omega
    | ⟨1, _⟩ => show win0_0.index t (1 : Fin 2) * 2 + 1 * d.val = d.val; omega
  rw [hemb]
  have key := layer_rows (N := 100000) (n := 10000)
    (fun r' : Fin 10000 => (⟨t.val * 10000 + r'.val, by have := r'.isLt; omega⟩ : Fin 100000))
    (V c main_v41) (iblk0 V c 0 t : Arr 10000 2) (V c main_arg2) (V c main_v42) (fun r' d => hA r' d _) r q
  refine Eq.trans ?_ key
  exact congrFun (congrArg₂ (fun w b => layer (iblk0 V c 0 t : Arr 10000 2) w b) hW hB) (ix2 r q)

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v43).slice (win0_3.rect t)).set ↔ _
  rw [View.set_slice_whole, Rect.mem_set_unit]
  exact Iff.rfl

/-- Every block of the output is some point's. -/
theorem idx_onto : ∀ (q0 : Fin 10), ∃ t : Fin cfg0.N, win0_3.index t = ![q0.val, 0] :=
  (by decide +kernel : ∀ (q0 : Fin 10), ∃ t : Fin grid0.N, win0_3.index t = ![q0.val, 0])

/-- The ten blocks cover the output array. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the region its output array holds `layer` of the arrays it found. -/
theorem array_eq (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  Region 1 of the idealized kernel as one whole-array operation, on the extended reals.

  At every grid point the body loads a block of 10000 rows of the aggregated features, the whole weight matrix
  and the whole one-row bias, and stores `layer` of them into the block of the same 10000 rows of the output.
  Rows of `layer A W b` depend on the same rows of `A` only, so that block is the block of `layer` of the WHOLE
  arrays; the ten blocks tile the output's 100000 rows, so after the region the output array is
  `layer A W b` of the arrays the region found.
-/
import proofs.«150885_j26809185861879_2_alg».proof.Proof.Gen.KernelIdeal.Frame
import proofs.«150885_j26809185861879_2_alg».proof.Proof.Layer

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.GCN Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's stored value is `layer` of the three blocks it loaded. -/
theorem pay_eq (x0 : Vec Ideal S10000x64 .f32) (x1 : Vec Ideal S64x128 .f32) (x2 : Vec Ideal S1x128 .f32) :
    (k1_pay1 (F := Ideal) x0 x1 x2 : Arr 10000 128) = layer x0 x1 x2 :=
  body_eq_layer dot_S10000x64_S64x128_S10000x128_1_0_0_1_n_n rfl x0 x1 x2 _ _ _ _

/-- The output array after the region, as one function of the arrays the region finds. -/
abbrev G (c : Dev nD) : Arr 100000 128 := layer (V c main_v56) (V c main_arg4) (V c main_v57)

/-- The printed index maps over the grid: the feature and output blocks move down the rows with the point, the
    weight and bias blocks stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 10 := lt_of_lt_of_eq t.isLt N_1

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x128) hz, View.ld_unit_zero (S := S1x128) hz]
  obtain ⟨e0, e1, e2, e3, e4, e5, e6, e7⟩ := idx_facts t
  have ht := t_lt t
  funext j
  obtain ⟨r, q, rfl⟩ : ∃ (r : Fin 10000) (q : Fin 128), j = ix2 r q := ⟨j 0, j 1, eq_ix2 j⟩
  have hr : t.val * 10000 + r.val < 100000 := by have := r.isLt; omega
  show k1_pay1 (iblk1 V c 0 t) (iblk1 V c 1 t) (iblk1 V c 2 t) (ix2 r q)
    = layer (V c main_v56) (V c main_arg4) (V c main_v57) (((cfg1.win 3).blk t).view.emb (ix2 r q))
  refine (congrFun (pay_eq _ _ _) (ix2 r q)).trans ?_
  have hemb : ((cfg1.win 3).blk t).view.emb (ix2 r q) = ix2 (⟨t.val * 10000 + r.val, hr⟩ : Fin 100000) q := by
    funext a; apply Fin.ext
    match a with
    | ⟨0, _⟩ => show win1_3.index t (0 : Fin 2) * 10000 + 1 * r.val = t.val * 10000 + r.val; omega
    | ⟨1, _⟩ => show win1_3.index t (1 : Fin 2) * 128 + 1 * q.val = q.val; omega
  have hW : (iblk1 V c 1 t : Arr 64 128) = V c main_arg4 := by
    funext y
    show V c main_arg4 (((cfg1.win 1).blk t).view.emb y) = V c main_arg4 y
    refine congrArg _ (funext fun a => Fin.ext ?_)
    match a with
    | ⟨0, _⟩ => show win1_1.index t (0 : Fin 2) * 64 + 1 * (y 0).val = (y 0).val; omega
    | ⟨1, _⟩ => show win1_1.index t (1 : Fin 2) * 128 + 1 * (y 1).val = (y 1).val; omega
  have hB : (iblk1 V c 2 t : Arr 1 128) = V c main_v57 := by
    funext y
    show V c main_v57 (((cfg1.win 2).blk t).view.emb y) = V c main_v57 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have hA : ∀ (r' : Fin 10000) (d : Fin 64) (h' : t.val * 10000 + r'.val < 100000),
      (iblk1 V c 0 t : Arr 10000 64) (ix2 r' d) = V c main_v56 (ix2 (⟨t.val * 10000 + r'.val, h'⟩ : Fin 100000) d) := by
    intro r' d h'
    show V c main_v56 (((cfg1.win 0).blk t).view.emb (ix2 r' d)) = _
    refine congrArg _ (funext fun a => Fin.ext ?_)
    match a with
    | ⟨0, _⟩ => show win1_0.index t (0 : Fin 2) * 10000 + 1 * r'.val = t.val * 10000 + r'.val; omega
    | ⟨1, _⟩ => show win1_0.index t (1 : Fin 2) * 64 + 1 * d.val = d.val; omega
  rw [hemb]
  have key := layer_rows (N := 100000) (n := 10000)
    (fun r' : Fin 10000 => (⟨t.val * 10000 + r'.val, by have := r'.isLt; omega⟩ : Fin 100000))
    (V c main_v56) (iblk1 V c 0 t : Arr 10000 64) (V c main_arg4) (V c main_v57) (fun r' d => hA r' d _) r q
  refine Eq.trans ?_ key
  exact congrFun (congrArg₂ (fun w b => layer (iblk1 V c 0 t : Arr 10000 64) w b) hW hB) (ix2 r q)

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v58).slice (win1_3.rect t)).set ↔ _
  rw [View.set_slice_whole, Rect.mem_set_unit]
  exact Iff.rfl

/-- Every block of the output is some point's. -/
theorem idx_onto : ∀ (q0 : Fin 10), ∃ t : Fin cfg1.N, win1_3.index t = ![q0.val, 0] :=
  (by decide +kernel : ∀ (q0 : Fin 10), ∃ t : Fin grid1.N, win1_3.index t = ![q0.val, 0])

/-- The ten blocks cover the output array. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the region its output array holds `layer` of the arrays it found. -/
theorem array_eq (c : Dev nD) : (dat1 V c).arrAt 3 cfg1.N = G V c :=
  (dat1 V c).arrAt_eq_of_cover 3 (G V c) (fun t _ => flushed_eq V c t) (cover)

end Cert.KernelIdeal.Region1

end
-- ==== Proof.LibRegionAsOp.lean ====
/-
  A pipelined region seen from outside is one operation on the core's buffers.

  When a region returns, the core's buffer contents are the entry contents with each of the region's arrays
  replaced by what the pipeline leaves in it (`Pipeline.withArrays`).  If every array but one ends as it was
  entered (the input windows) and the remaining one ends at the value some operation `op` — one that writes
  exactly that array's buffer — computes from the entry contents, then the region's effect on the whole
  valuation IS `op.result`.  A program that alternates host operations and such regions is then, as far as
  buffer contents go, a straight line of operations, and the contents after it are `StableHlo.after` of that
  line.  Also: the fold over a concatenation of two lines is the fold over the second after the first.
-/
import Idealize.ShloMosaic.Lib.Pipeline.FrameSuffix
import Idealize.ShloMosaic.Lib.StableHlo.Run

noncomputable section

namespace Cert.Lib

open Idealize.ShloMosaic Idealize.ShloMosaic.TcCoe Idealize.ShloMosaic.Pipeline

variable {nD : Nat} {τ : Topo} {sig : RefSig} {Val : EltTy → Type}

/-- The region's exit contents are one operation's result of its entry contents: the operation writes exactly
    the buffer of array `wo` (`hw`), the pipeline leaves in that array the operation's value (`hout`), and
    every other array of the region ends holding its entry contents (`hin`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo; exact hout
    · rw [hin w hwo, op.result_of_not_mem V]
      rw [hw, Finset.mem_singleton]
      exact fun e => hwo (hinj (Proc.devRef_injective _ e))
  · have hb : b ∉ op.writes := by
      rw [hw, Finset.mem_singleton]
      exact fun e => h ⟨wo, e.symm⟩
    rw [op.result_of_not_mem V hb]
    unfold withArrays
    rw [dif_neg h]

/-- The contents after two lines run one after the other. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line. -/
theorem after_singleton (op : HloOp τ sig Val) (V : Valuation τ sig Val) :
    StableHlo.after [op] V = op.result V := rfl

end Cert.Lib

end
-- ==== Proof.KernelValue.lean ====
/-
  The idealized kernel's result as one term of its arguments, on the extended reals.

  Each region leaves its input arrays as it found them and its output array at `layer` of them, so seen from
  outside it is ONE operation on the core's buffers, and the program is a straight line: the first stretch of
  host operations, the first layer, the second stretch, the second layer.  Reading the result buffer through
  that line gives

      layer (aggregate₆₄ (layer (aggregate₂ x) W₁ b₁)) W₂ b₂

  where `aggregate` gathers the rows named by the source indices, scales row `e` by `norm e`, and adds the rows up
  at the destination indices (a scatter-add into zeros); the indices are the argument's two rows, each followed
  by the self loops `0 … 99999`, and `norm e` is the product of the inverse square roots of the two end points'
  degrees (a degree below one counted as one).
-/
import proofs.«150885_j26809185861879_2_alg».proof.Proof.Region0
import proofs.«150885_j26809185861879_2_alg».proof.Proof.Region1
import proofs.«150885_j26809185861879_2_alg».proof.Proof.LibRegionAsOp

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.GCN Cert.Layers

/-! ## The host stretches' values, named -/

section Terms

variable (a0 : IVec S2x1600000 32)

/-- Row `r` of the edge list followed by the self loops. -/
def endpoints (r : Fin 2 → Nat) (h : S2x1600000.Slices r S1x1600000) : IVec S1700000 32 :=
  concatenate S1700000 0
    [⟨S1600000, shapeCast S1600000 (extractStridedSlice S1x1600000 r a0 h) shapeCasts_S1x1600000_S1600000⟩,
     ⟨S100000, iotaInDim S100000 32 0⟩] concatenates_S1600000_S100000_S1700000_d0

/-- The source end of every edge. -/
def srcRaw : IVec S1700000 32 := endpoints a0 ![0, 0] slices_S2x1600000_S1x1600000_0_0
/-- The destination end of every edge. -/
def dstRaw : IVec S1700000 32 := endpoints a0 ![1, 0] slices_S2x1600000_S1x1600000_1_0

/-- A negative index counted from the end: `v + 100000` where `v < 0`. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- An index vector as a one-column index array. -/
def col (v : IVec S1700000 32) : IVec S1700000x1 32 := broadcastInDim S1700000x1 ![0] bcast_S1700000_S1700000x1_0 v

/-- Every node's degree: ones added up at the destination indices. -/
def deg : FVec Ideal S100000 .f32 :=
  Host.scatterAdd scatter_S100000_S1700000x1_S1700000_n_0_0_1
    (broadcastInDim S100000 ![] bcast_S_S100000 (constant S_ .f32 0x00000000#32)) (col (dstRaw a0))
    (broadcastInDim S1700000 ![] bcast_S_S1700000 (constant S_ .f32 0x3F800000#32))

/-- The inverse square root of the degree, a degree below one counted as one. -/
def dinv : FVec Ideal S100000 .f32 :=
  Host.rsqrt (maximumf (deg a0) (broadcastInDim S100000 ![] bcast_S_S100000 (constant S_ .f32 0x3F800000#32)))

/-- Every edge's weight. -/
def norm : FVec Ideal S1700000 .f32 :=
  mulf (Host.gather gather_S100000_S1700000x1_S1700000_n_0_n_n_0_1_1 (dinv a0) (col (wrap (srcRaw a0))))
    (Host.gather gather_S100000_S1700000x1_S1700000_n_0_n_n_0_1_1 (dinv a0) (col (wrap (dstRaw a0))))

/-- The weight as a one-column array. -/
def normCol : FVec Ideal S1700000x1 .f32 := broadcastInDim S1700000x1 ![0] bcast_S1700000_S1700000x1_0 (norm a0)

/-- The two-column features gathered along the edges, weighted, added up at the destinations. -/
def aggregate2 (X : FVec Ideal S100000x2 .f32) : FVec Ideal S100000x2 .f32 :=
  Host.scatterAdd scatter_S100000x2_S1700000x1_S1700000x2_1_0_0_1
    (broadcastInDim S100000x2 ![] bcast_S_S100000x2 (constant S_ .f32 0x00000000#32)) (col (dstRaw a0))
    (mulf (Host.gather gather_S100000x2_S1700000x1_S1700000x2_1_0_n_n_0_1_12 X (col (wrap (srcRaw a0))))
      (broadcastInDim S1700000x2 ![0, 1] bcast_S1700000x1_S1700000x2_0_1 (normCol a0)))

/-- The same over sixty-four columns. -/
def aggregate64 (X : FVec Ideal S100000x64 .f32) : FVec Ideal S100000x64 .f32 :=
  Host.scatterAdd scatter_S100000x64_S1700000x1_S1700000x64_1_0_0_1
    (broadcastInDim S100000x64 ![] bcast_S_S100000x64 (constant S_ .f32 0x00000000#32)) (col (dstRaw a0))
    (mulf (Host.gather gather_S100000x64_S1700000x1_S1700000x64_1_0_n_n_0_1_164 X (col (wrap (srcRaw a0))))
      (broadcastInDim S1700000x64 ![0, 1] bcast_S1700000x1_S1700000x64_0_1 (normCol a0)))

/-- The first layer's features. -/
def hidden1 (x : FVec Ideal S100000x2 .f32) (w1 : FVec Ideal S2x64 .f32) (b1 : FVec Ideal S64 .f32) : FVec Ideal S100000x64 .f32 :=
  layer (aggregate2 a0 x) w1 (shapeCast S1x64 b1 shapeCasts_S64_S1x64)

/-- The kernel's result. -/
def result (x : FVec Ideal S100000x2 .f32) (w1 : FVec Ideal S2x64 .f32) (b1 : FVec Ideal S64 .f32)
    (w2 : FVec Ideal S64x128 .f32) (b2 : FVec Ideal S128 .f32) : FVec Ideal S100000x128 .f32 :=
  layer (aggregate64 a0 (hidden1 a0 x w1 b1)) w2 (shapeCast S1x128 b2 shapeCasts_S128_S1x128)

end Terms

/-! ## Each region is one operation -/

variable (m : (ℓ : Loc nD τ sig) → Buf (Elt Ideal) ℓ) (ρ : Dev nD → PrngReg)

/-- The first region as an operation: the layer of its three input arrays, written to its output array. -/
def op0 : HloOp τ sig (Elt Ideal) :=
  StableHlo.ternary main_v41 main_arg2 main_v42 main_v43
    ((fun A W b => layer A W b) : (⟨S100000x2, .f32⟩ : BufTy).Contents (Elt Ideal) → (⟨S2x64, .f32⟩ : BufTy).Contents (Elt Ideal) → (⟨S1x64, .f32⟩ : BufTy).Contents (Elt Ideal) → (⟨S100000x64, .f32⟩ : BufTy).Contents (Elt Ideal))

/-- The second region as an operation. -/
def op1 : HloOp τ sig (Elt Ideal) :=
  StableHlo.ternary main_v56 main_arg4 main_v57 main_v58
    ((fun A W b => layer A W b) : (⟨S100000x64, .f32⟩ : BufTy).Contents (Elt Ideal) → (⟨S64x128, .f32⟩ : BufTy).Contents (Elt Ideal) → (⟨S1x128, .f32⟩ : BufTy).Contents (Elt Ideal) → (⟨S100000x128, .f32⟩ : BufTy).Contents (Elt Ideal))

/-- At the first region's exit the core's buffers are the first layer's operation applied to its entry contents. -/
theorem W2_eq (c : Dev nD) : W2 (F := Ideal) m ρ c = op0.result (W1 m ρ c) := by
  unfold W2
  refine Cert.Lib.withArrays_eq_result spec0 launch0.win.arr_inj c (W1 m ρ c) _ op0 3 rfl ?_ ?_
  · exact (Region0.array_eq (V1 m ρ) c).trans
      (StableHlo.ternary_result main_v41 main_arg2 main_v42 main_v43 _ _ _ _ _ (W1 m ρ c)).symm
  · intro w hw
    match w, hw with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, h => exact absurd rfl h

/-- At the second region's exit the core's buffers are the second layer's operation applied to its entry contents. -/
theorem W4_eq (c : Dev nD) : W4 (F := Ideal) m ρ c = op1.result (W3 m ρ c) := by
  unfold W4
  refine Cert.Lib.withArrays_eq_result spec1 launch1.win.arr_inj c (W3 m ρ c) _ op1 3 rfl ?_ ?_
  · exact (Region1.array_eq (V3 m ρ) c).trans
      (StableHlo.ternary_result main_v56 main_arg4 main_v57 main_v58 _ _ _ _ _ (W3 m ρ c)).symm
  · intro w hw
    match w, hw with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, h => exact absurd rfl h

end Cert.KernelIdeal.Val

end
-- ==== Proof.KernelResult.lean ====
/-
  The idealized kernel's result buffer after the run is `Val.result` of the launch contents of the six arguments:
  the straight line (first host stretch, first layer, second host stretch, second layer) read at the result buffer,
  one operation at a time.
-/
import proofs.«150885_j26809185861879_2_alg».proof.Proof.KernelValue

set_option maxRecDepth 16384

noncomputable section

namespace Cert.KernelIdeal.Val

open Idealize.ShloMosaic Idealize.ShloMosaic.TcCoe Idealize.ShloMosaic.ValueIdx
open Idealize.SL.Sem
open Cert.KernelIdeal Cert.KernelIdeal.Gen Cert.Spec Cert.GCN Cert.Layers

variable (m : (ℓ : Loc nD τ sig) → Buf (Elt Ideal) ℓ) (ρ : Dev nD → PrngReg)

/-- The second stretch starts from the first stretch followed by the first layer. -/
theorem W3_eq (c : Dev nD) :
    W3 (F := Ideal) m ρ c = StableHlo.after hostOps1 (op0.result (StableHlo.after hostOps0 (W0 m ρ c))) := by
  show StableHlo.after hostOps1 (W2 m ρ c) = _
  rw [W2_eq]

set_option maxHeartbeats 4000000 in
/-- The result buffer at the end of the run. -/
theorem result_eq (c : Dev nD) :
    W4 (F := Ideal) m ρ c (Proc.devRef .tc main_v58)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [W4_eq, W3_eq]
  unfold op1
  rw [StableHlo.ternary_result]
  unfold op0
  simp only [hostOps1, hostOps0]
  after_results_simp
  rfl

end Cert.KernelIdeal.Val

end
-- ==== Proof.RefRunOps.lean ====
/- The reference program's run, read back: @main as the list of its 92 host operations (the two calls of the
   leaky-relu function, each with its nested select, written out at the call site over the call's own buffers), the
   equation `main = seq ops` window by window, and the run: every weakly fair execution terminates with the result
   buffer at the operations' composed term of the arguments' launch contents, the arguments unchanged. -/
import proofs.«150885_j26809185861879_2_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 66 of 92 (window `main_part0`): the first layer, its activation's seven operations in the call's place, then the second layer's product with its weight. -/
abbrev ops_part0 : List (HloOp τ sig (Elt F)) :=
  [ nullary main_v0 (iotaInDim S100000 32 0),
    unary main_arg0 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg0 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v3 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v3 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)),
    binary main_arg1 main_arg2 main_v29 ((fun l r => Host.dotGeneral dot_S100000x2_S2x64_S100000x64_1_0_0_1_n_n none l r) : (⟨S100000x2, .f32⟩ : BufTy).Contents (Elt F) → (⟨S2x64, .f32⟩ : BufTy).Contents (Elt F) → (⟨S100000x64, .f32⟩ : BufTy).Contents (Elt F)),
    nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v28 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x64 ![0, 1] bcast_S1700000x1_S1700000x64_0_1 : (⟨S1700000x1, .f32⟩ : BufTy).Contents (Elt F) → (⟨S1700000x64, .f32⟩ : BufTy).Contents (Elt F)),
    binary main_v36 main_v38 main_v39 (mulf : (⟨S1700000x64, .f32⟩ : BufTy).Contents (Elt F) → (⟨S1700000x64, .f32⟩ : BufTy).Contents (Elt F) → (⟨S1700000x64, .f32⟩ : BufTy).Contents (Elt F)),
    nullary main_cst_7 (constant S_ .f32 0x00000000#32),
    unary main_cst_7 main_v40 (broadcastInDim S100000x64 ![] bcast_S_S100000x64 : (⟨S_, .f32⟩ : BufTy).Contents (Elt F) → (⟨S100000x64, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3C23D70A#32),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v45) (TRef.of (T := ⟨S100000x64, .f32⟩) main_call0_v0) (TRef.of (T := ⟨S100000x64, .i1⟩) main_call0_v1) (cmpf .oge),
    TRef.unary (TRef.of (T := ⟨S_, .f32⟩) main_cst_8) (TRef.of (T := ⟨S_, .f32⟩) main_call0_v2) id,
    TRef.unary (TRef.of (T := ⟨S_, .f32⟩) main_call0_v2) (TRef.of (T := ⟨S100000x64, .f32⟩) main_call0_v3) (broadcastInDim S100000x64 ![] bcast_S_S100000x64),
    TRef.binary (TRef.of (T := ⟨S100000x64, .f32⟩) main_call0_v3) (TRef.of (T := ⟨S100000x64, .f32⟩) main_v45) (TRef.of (T := ⟨S100000x64, .f32⟩) main_call0_v4) mulf,
    TRef.ternary (TRef.of (T := ⟨S100000x64, .i1⟩) main_call0_v1) (TRef.of (T := ⟨S100000x64, .f32⟩) main_v45) (TRef.of (T := ⟨S100000x64, .f32⟩) main_call0_v4) (TRef.of (T := ⟨S100000x64, .f32⟩) main_v46) select,
    binary main_v46 main_arg4 main_v47 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_9 (constantI S_ 32 0#32) ]

/-- @main's operations 67 … 92 of 92 (window `main_part1`): the second layer's aggregation and its activation's seven operations. -/
abbrev ops_part1 : List (HloOp τ sig (Elt F)) :=
  [ unary main_c_9 main_v48 (broadcastInDim S1700000 ![] bcast_S_S1700000 : (⟨S_, .i32⟩ : BufTy).Contents (Elt F) → (⟨S1700000, .i32⟩ : BufTy).Contents (Elt F)),
    binary main_v3 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v50 (broadcastInDim S1700000 ![] bcast_S_S1700000 : (⟨S_, .i32⟩ : BufTy).Contents (Elt F) → (⟨S1700000, .i32⟩ : BufTy).Contents (Elt F)),
    binary main_v3 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v3 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v47 main_v53 main_v54 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v28 main_v55 (broadcastInDim S1700000x1 ![0] bcast_S1700000_S1700000x1_0 : (⟨S1700000, .f32⟩ : BufTy).Contents (Elt F) → (⟨S1700000x1, .f32⟩ : BufTy).Contents (Elt F)),
    unary main_v55 main_v56 (broadcastInDim S1700000x128 ![0, 1] bcast_S1700000x1_S1700000x128_0_1 : (⟨S1700000x1, .f32⟩ : BufTy).Contents (Elt F) → (⟨S1700000x128, .f32⟩ : BufTy).Contents (Elt F)),
    binary main_v54 main_v56 main_v57 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v58 (broadcastInDim S100000x128 ![] bcast_S_S100000x128 : (⟨S_, .f32⟩ : BufTy).Contents (Elt F) → (⟨S100000x128, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3C23D70A#32),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v63) (TRef.of (T := ⟨S100000x128, .f32⟩) main_call1_v0) (TRef.of (T := ⟨S100000x128, .i1⟩) main_call1_v1) (cmpf .oge),
    TRef.unary (TRef.of (T := ⟨S_, .f32⟩) main_cst_12) (TRef.of (T := ⟨S_, .f32⟩) main_call1_v2) id,
    TRef.unary (TRef.of (T := ⟨S_, .f32⟩) main_call1_v2) (TRef.of (T := ⟨S100000x128, .f32⟩) main_call1_v3) (broadcastInDim S100000x128 ![] bcast_S_S100000x128),
    TRef.binary (TRef.of (T := ⟨S100000x128, .f32⟩) main_call1_v3) (TRef.of (T := ⟨S100000x128, .f32⟩) main_v63) (TRef.of (T := ⟨S100000x128, .f32⟩) main_call1_v4) mulf,
    TRef.ternary (TRef.of (T := ⟨S100000x128, .i1⟩) main_call1_v1) (TRef.of (T := ⟨S100000x128, .f32⟩) main_v63) (TRef.of (T := ⟨S100000x128, .f32⟩) main_call1_v4) (TRef.of (T := ⟨S100000x128, .f32⟩) main_v64) select ]

/-- @main's 92 operations, in order. -/
abbrev ops : List (HloOp τ sig (Elt F)) :=
  ops_part0 ++ ops_part1

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub ..⟩
set_option maxRecDepth 8192 in
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

set_option maxRecDepth 8192 in
/-- Every weakly fair execution of @main terminates, and every final state has each buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefRun.lean ====
/- The reference program's result as one function of its six argument arrays, written with named intermediates that
   mirror the printed lines, and the run: every weakly fair execution of @main terminates with the result buffer at
   that function of the arguments' launch contents, and the arguments unchanged. -/
import proofs.«150885_j26809185861879_2_alg».proof.Proof.RefRunOps
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result, as a function of the arguments

The graph has 100000 nodes and 1600000 edges; `a0` holds the edges' source nodes (row 0) and target nodes (row 1).
Every node also gets a self-loop, so every per-edge array has 1600000 + 100000 = 1700000 entries. -/

/-- `%3`: the source node of each of the 1700000 edges — row 0 of `a0`, then the self-loops' `0 … 99999`. -/
def srcRaw (a0 : IVec S2x1600000 32) : IVec S1700000 32 :=
  concatenate S1700000 0 [⟨S1600000, shapeCast S1600000 (extractStridedSlice S1x1600000 ![0, 0] a0 slices_S2x1600000_S1x1600000_0_0) shapeCasts_S1x1600000_S1600000⟩, ⟨S100000, iotaInDim S100000 32 0⟩] concatenates_S1600000_S100000_S1700000_d0

/-- `%6`: the target node of each edge — row 1 of `a0`, then the self-loops' `0 … 99999`. -/
def dstRaw (a0 : IVec S2x1600000 32) : IVec S1700000 32 :=
  concatenate S1700000 0 [⟨S1600000, shapeCast S1600000 (extractStridedSlice S1x1600000 ![1, 0] a0 slices_S2x1600000_S1x1600000_1_0) shapeCasts_S1x1600000_S1600000⟩, ⟨S100000, iotaInDim S100000 32 0⟩] concatenates_S1600000_S100000_S1700000_d0

/-- A negative node index counts from the end: `i` if `0 ≤ i`, else `i + 100000`, entry by entry (the text of
    `%14 … %18`, of `%21 … %25`, of `%30 … %34` and of `%48 … %52`). -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- `%18` (and `%34`, `%52`): the source nodes, wrapped. -/
def srcWrapped (a0 : IVec S2x1600000 32) : IVec S1700000 32 := wrap (srcRaw a0)

/-- `%25`: the target nodes, wrapped. -/
def dstWrapped (a0 : IVec S2x1600000 32) : IVec S1700000 32 := wrap (dstRaw a0)

/-- A per-edge index array as the one-column table a gather or scatter takes (`%9`, `%19`, `%26`, `%35`, `%41`, `%53`, `%59`). -/
def col (v : IVec S1700000 32) : IVec S1700000x1 32 := broadcastInDim S1700000x1 ![0] bcast_S1700000_S1700000x1_0 v

/-- `%10`: each node's in-degree, self-loop included — a one added at the target of every edge. -/
def degree (a0 : IVec S2x1600000 32) : FVec F S100000 .f32 :=
  Host.scatterAdd scatter_S100000_S1700000x1_S1700000_n_0_0_1 (broadcastInDim S100000 ![] bcast_S_S100000 (constant S_ .f32 0x00000000#32)) (col (dstRaw a0)) (broadcastInDim S1700000 ![] bcast_S_S1700000 (constant S_ .f32 0x3F800000#32))

/-- `%13`: `1 / sqrt (max degree 1)`, node by node. -/
def dinv (a0 : IVec S2x1600000 32) : FVec F S100000 .f32 :=
  Host.rsqrt (maximumf (degree a0) (broadcastInDim S100000 ![] bcast_S_S100000 (constant S_ .f32 0x3F800000#32)))

/-- `%28`: each edge's weight, `dinv` at its source times `dinv` at its target. -/
def norm (a0 : IVec S2x1600000 32) : FVec F S1700000 .f32 :=
  mulf (Host.gather gather_S100000_S1700000x1_S1700000_n_0_n_n_0_1_1 (dinv a0) (col (srcWrapped a0))) (Host.gather gather_S100000_S1700000x1_S1700000_n_0_n_n_0_1_1 (dinv a0) (col (dstWrapped a0)))

/-- `@leaky_relu` at 64 columns (`%46`'s call): `z` where `z ≥ 0`, else `0.01 · z`. -/
def leaky1 (z : FVec F S100000x64 .f32) : FVec F S100000x64 .f32 :=
  select (cmpf .oge z (broadcastInDim S100000x64 ![] bcast_S_S100000x64 (constant S_ .f32 0x00000000#32))) z (mulf (broadcastInDim S100000x64 ![] bcast_S_S100000x64 (constant S_ .f32 0x3C23D70A#32)) z)

/-- `@leaky_relu_0` at 128 columns (`%64`'s call). -/
def leaky2 (z : FVec F S100000x128 .f32) : FVec F S100000x128 .f32 :=
  select (cmpf .oge z (broadcastInDim S100000x128 ![] bcast_S_S100000x128 (constant S_ .f32 0x00000000#32))) z (mulf (broadcastInDim S100000x128 ![] bcast_S_S100000x128 (constant S_ .f32 0x3C23D70A#32)) z)

/-- `%29`: the first layer's node features times its weight. -/
def lin1 (h : FVec F S100000x2 .f32) (w : FVec F S2x64 .f32) : FVec F S100000x64 .f32 :=
  Host.dotGeneral dot_S100000x2_S2x64_S100000x64_1_0_0_1_n_n none h w

/-- `%42`: the first layer's aggregation — each edge's weighted row of `xw` at its source, summed into its target. -/
def agg1 (xw : FVec F S100000x64 .f32) (a0 : IVec S2x1600000 32) : FVec F S100000x64 .f32 :=
  Host.scatterAdd scatter_S100000x64_S1700000x1_S1700000x64_1_0_0_1 (broadcastInDim S100000x64 ![] bcast_S_S100000x64 (constant S_ .f32 0x00000000#32)) (col (dstRaw a0))
    (mulf (Host.gather gather_S100000x64_S1700000x1_S1700000x64_1_0_n_n_0_1_164 xw (col (srcWrapped a0))) (broadcastInDim S1700000x64 ![0, 1] bcast_S1700000x1_S1700000x64_0_1 (broadcastInDim S1700000x1 ![0] bcast_S1700000_S1700000x1_0 (norm a0))))

/-- `%29 … %46`: the first layer — product with the weight, aggregation over the edges, bias, leaky relu. -/
def conv1 (h : FVec F S100000x2 .f32) (w : FVec F S2x64 .f32) (b : FVec F S64 .f32) (a0 : IVec S2x1600000 32) : FVec F S100000x64 .f32 :=
  leaky1 (addf (agg1 (lin1 h w) a0) (broadcastInDim S100000x64 ![0, 1] bcast_S1x64_S100000x64_0_1 (broadcastInDim S1x64 ![1] bcast_S64_S1x64_1 b)))

/-- `%47`: the second layer's node features times its weight. -/
def lin2 (h : FVec F S100000x64 .f32) (w : FVec F S64x128 .f32) : FVec F S100000x128 .f32 :=
  Host.dotGeneral dot_S100000x64_S64x128_S100000x128_1_0_0_1_n_n none h w

/-- `%60`: the second layer's aggregation. -/
def agg2 (xw : FVec F S100000x128 .f32) (a0 : IVec S2x1600000 32) : FVec F S100000x128 .f32 :=
  Host.scatterAdd scatter_S100000x128_S1700000x1_S1700000x128_1_0_0_1 (broadcastInDim S100000x128 ![] bcast_S_S100000x128 (constant S_ .f32 0x00000000#32)) (col (dstRaw a0))
    (mulf (Host.gather gather_S100000x128_S1700000x1_S1700000x128_1_0_n_n_0_1_1128 xw (col (srcWrapped a0))) (broadcastInDim S1700000x128 ![0, 1] bcast_S1700000x1_S1700000x128_0_1 (broadcastInDim S1700000x1 ![0] bcast_S1700000_S1700000x1_0 (norm a0))))

/-- `%47 … %64`: the second layer. -/
def conv2 (h : FVec F S100000x64 .f32) (w : FVec F S64x128 .f32) (b : FVec F S128 .f32) (a0 : IVec S2x1600000 32) : FVec F S100000x128 .f32 :=
  leaky2 (addf (agg2 (lin2 h w) a0) (broadcastInDim S100000x128 ![0, 1] bcast_S1x128_S100000x128_0_1 (broadcastInDim S1x128 ![1] bcast_S128_S1x128_1 b)))

/-- `%64`, the program's result: two layers over the same edges. -/
def result (a0 : IVec S2x1600000 32) (x : FVec F S100000x2 .f32) (w1 : FVec F S2x64 .f32) (b1 : FVec F S64 .f32) (w2 : FVec F S64x128 .f32) (b2 : FVec F S128 .f32) : FVec F S100000x128 .f32 :=
  conv2 (conv1 x w1 b1 a0) w2 b2 a0

/-! ## The fold, window by window -/

/-- The device's buffer contents after @main's first window. -/
def val1 (V0 : Valuation τ sig (Elt F)) : Valuation τ sig (Elt F) := after ops_part0 V0
/-- The buffers that window `main_part0`'s operations write. -/
abbrev ops_part0_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29, main_c_5, main_v30, main_v31, main_c_6, main_v32, main_v33, main_v34, main_v35, main_v36, main_v37, main_v38, main_v39, main_cst_7, main_v40, main_v41, main_v42, main_v43, main_v44, main_v45, main_cst_8, main_call0_cst, main_call0_v0, main_call0_v1, main_call0_v2, main_call0_v3, main_call0_v4, main_v46, main_v47, main_c_9]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer that the first window does not write keeps its contents through it. -/
theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)

set_option maxRecDepth 8192 in
set_option maxHeartbeats 4000000 in
theorem val1_main_v3 (V0 : Valuation τ sig (Elt F)) : val1 V0 (no_index (Proc.devRef .tc main_v3)) = srcRaw (V0 (Proc.devRef .tc main_arg0)) := by
  unfold val1
  simp only [ops_part0]
  after_results_simp
  rfl

set_option maxRecDepth 8192 in
set_option maxHeartbeats 4000000 in
theorem val1_main_v6 (V0 : Valuation τ sig (Elt F)) : val1 V0 (no_index (Proc.devRef .tc main_v6)) = dstRaw (V0 (Proc.devRef .tc main_arg0)) := by
  unfold val1
  simp only [ops_part0]
  after_results_simp
  rfl

set_option maxRecDepth 8192 in
set_option maxHeartbeats 4000000 in
theorem val1_main_c_9 (V0 : Valuation τ sig (Elt F)) : val1 V0 (no_index (Proc.devRef .tc main_c_9)) = constantI S_ 32 0#32 := by
  unfold val1
  simp only [ops_part0]
  after_results_simp

set_option maxRecDepth 8192 in
set_option maxHeartbeats 4000000 in
theorem val1_main_v28 (V0 : Valuation τ sig (Elt F)) : val1 V0 (no_index (Proc.devRef .tc main_v28)) = norm (V0 (Proc.devRef .tc main_arg0)) := by
  unfold val1
  simp only [ops_part0]
  after_results_simp
  rfl

set_option maxRecDepth 8192 in
set_option maxHeartbeats 4000000 in
theorem val1_main_v47 (V0 : Valuation τ sig (Elt F)) : val1 V0 (no_index (Proc.devRef .tc main_v47)) = lin2 (conv1 (V0 (Proc.devRef .tc main_arg1)) (V0 (Proc.devRef .tc main_arg2)) (V0 (Proc.devRef .tc main_arg3)) (V0 (Proc.devRef .tc main_arg0))) (V0 (Proc.devRef .tc main_arg4)) := by
  unfold val1
  simp only [ops_part0]
  after_results_simp
  rfl

/-- The device's buffer contents after @main's two windows. -/
def val2 (V0 : Valuation τ sig (Elt F)) : Valuation τ sig (Elt F) := after ops_part1 (val1 V0)
/-- The buffers that window `main_part1`'s operations write. -/
abbrev ops_part1_W : List (Ref sig .tc) := [main_v48, main_v49, main_c_10, main_v50, main_v51, main_v52, main_v53, main_v54, main_v55, main_v56, main_v57, main_cst_11, main_v58, main_v59, main_v60, main_v61, main_v62, main_v63, main_cst_12, main_call1_cst, main_call1_v0, main_call1_v1, main_call1_v2, main_call1_v3, main_call1_v4, main_v64]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer that the second window does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)

set_option maxRecDepth 8192 in
set_option maxHeartbeats 4000000 in
theorem val2_main_v64 (V0 : Valuation τ sig (Elt F)) : val2 V0 (no_index (Proc.devRef .tc main_v64)) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val2
  simp only [ops_part1]
  after_results_simp
  simp only [val1_main_c_9, val1_main_v3, val1_main_v6, val1_main_v28, val1_main_v47, val1_main_arg5]
  rfl

theorem after_ops (V0 : Valuation τ sig (Elt F)) : after ops V0 = val2 V0 := by
  simp only [ops, after_append]
  rfl

/-! ## The run -/

/-- On every device, for any float values, from any memory with zero counters: every weakly fair execution of @main
    terminates with the result buffer at `result` of the arguments' launch contents, and the arguments unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v64) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v64).trans (by simp only [after_ops]; exact val2_main_v64 (launchContents m c)),
      (h c main_arg0).trans (by simp only [after_ops]; exact val2_main_arg0 (launchContents m c)),
      (h c main_arg1).trans (by simp only [after_ops]; exact val2_main_arg1 (launchContents m c)),
      (h c main_arg2).trans (by simp only [after_ops]; exact val2_main_arg2 (launchContents m c)),
      (h c main_arg3).trans (by simp only [after_ops]; exact val2_main_arg3 (launchContents m c)),
      (h c main_arg4).trans (by simp only [after_ops]; exact val2_main_arg4 (launchContents m c)),
      (h c main_arg5).trans (by simp only [after_ops]; exact val2_main_arg5 (launchContents m c))⟩)
    (run_all m ρ)

end Cert.ReferenceIdeal.RefRun

end
-- ==== Proof.Finite.lean ====
/-
  From the precondition to "every float input entry is a real number".

  The precondition takes, for each float argument, the absolute value of every entry, compares it
  (strictly less) with plus infinity, and folds the comparisons by "and" over all axes; the five
  results are "and"ed. Read at the extended reals, an all-ones result says every entry of every
  float argument is neither plus nor minus infinity, i.e. is a real number.
-/
import proofs.«150885_j26809185861879_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- an entry that is a real number -/
def IsReal (x : EReal) : Prop := x ≠ ⊤ ∧ x ≠ ⊥

/-- the rank-0 shape has exactly one index -/
instance : Subsingleton S_.Idx := ⟨fun a b => funext fun d => d.elim0⟩

/-- One entry: `|x| < +∞` at the extended reals says `x` is a real number. -/
theorem isReal_of_abs_lt_top (x : Ideal .f32)
    (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  obtain ⟨h1, h2⟩ := max_lt_iff.1 hlt
  refine ⟨ne_of_lt h1, ?_⟩
  intro hx
  rw [hx] at h2
  simp at h2

/-- The "and" of two rank-0 one-bit arrays is 1 exactly when both are. -/
theorem andi_ix0 (a b : IVec S_ 1) (h : andi a b ValueIdx.ix0 = 1#1) :
    a ValueIdx.ix0 = 1#1 ∧ b ValueIdx.ix0 = 1#1 := IntOp.andi_eq_one.1 h

/-- One argument: if the "and" over all axes of `|x| < +∞` is 1, every entry of `x` is a real number. -/
theorem all_isReal {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
          (cmpf .olt (Host.absf x) (broadcastInDim s ![] bc (constant S_ .f32 0x7F800000#32)))
          (constantI S_ 1 1#1) hr hu ValueIdx.ix0 = 1#1) :
    ∀ i, IsReal (x i) :=
  fun i => isReal_of_abs_lt_top (x i) (Host.reduce_andi_all _ _ hr hu _ e i)

/-- The precondition, all ones, says every entry of every float argument is a real number. -/
theorem of_pre (a0 : IVec S2x1600000 32) (x : FVec Ideal S100000x2 .f32) (w1 : FVec Ideal S2x64 .f32)
    (b1 : FVec Ideal S64 .f32) (w2 : FVec Ideal S64x128 .f32) (b2 : FVec Ideal S128 .f32)
    (h : Cert.Pre_finite_inputs.fn (F := Ideal) a0 x w1 b1 w2 b2 = (fun _ => 1#1)) :
    (∀ i, IsReal (x i)) ∧ (∀ i, IsReal (w1 i)) ∧ (∀ i, IsReal (b1 i)) ∧ (∀ i, IsReal (w2 i)) ∧
      (∀ i, IsReal (b2 i)) := by
  have h0 := congrFun h ValueIdx.ix0
  dsimp only [fn, fn_part1] at h0
  obtain ⟨h1234, h5⟩ := andi_ix0 _ _ h0
  obtain ⟨h123, h4⟩ := andi_ix0 _ _ h1234
  obtain ⟨h12, h3⟩ := andi_ix0 _ _ h123
  obtain ⟨h1, h2⟩ := andi_ix0 _ _ h12
  exact ⟨all_isReal x _ _ _ h1, all_isReal w1 _ _ _ h2, all_isReal b1 _ _ _ h3, all_isReal w2 _ _ _ h4,
    all_isReal b2 _ _ _ h5⟩

end Cert.Finite

end
-- ==== Proof.Consts.lean ====
/-
  The float words the programs spell, as the extended reals they denote: the word of 1.0 is the real 1, and the
  rectifier's slope (the word 0x3C23D70A) is a real number, neither infinity.
-/
import Idealize.ShloMosaic.PureOps.Ideal

noncomputable section

namespace Cert.Consts

open Idealize.ShloMosaic

/-- The word of `1.0` denotes `1`. -/
theorem ofBits_one : Ideal.ofBits .f32 0x3F800000#32 = 1 := by
  simp [Ideal.ofBits, Ideal.ieee, -EReal.coe_mul]; norm_num

/-- The rectifier's slope is not plus infinity. -/
theorem slope_ne_top : Ideal.ofBits .f32 0x3C23D70A#32 ≠ ⊤ := by
  simp [Ideal.ofBits, Ideal.ieee, -EReal.coe_mul]
  first | done | exact EReal.coe_ne_top _

/-- The rectifier's slope is not minus infinity. -/
theorem slope_ne_bot : Ideal.ofBits .f32 0x3C23D70A#32 ≠ ⊥ := by
  simp [Ideal.ofBits, Ideal.ieee, -EReal.coe_mul]
  first | done | exact EReal.coe_ne_bot _

end Cert.Consts

end
-- ==== Proof.RealLemmas.lean ====
/-
  Extended reals that are real numbers: closed under products, and the inverse square root of `max y 1` is one for
  EVERY extended real `y` — `max y 1` is plus infinity (inverse square root `0`) or a real number at least `1`.
-/
import Idealize.ShloMosaic.PureOps.Ideal

noncomputable section

namespace Cert.Reals

open Idealize.ShloMosaic

/-- An extended real that is a real number. -/
def IsReal (x : EReal) : Prop := x ≠ ⊤ ∧ x ≠ ⊥

theorem isReal_coe (r : ℝ) : IsReal (r : EReal) := ⟨EReal.coe_ne_top r, EReal.coe_ne_bot r⟩

theorem IsReal.mul {x y : EReal} (hx : IsReal x) (hy : IsReal y) : IsReal (x * y) := by
  obtain ⟨hx1, hx2⟩ := hx
  obtain ⟨hy1, hy2⟩ := hy
  lift x to ℝ using ⟨hx1, hx2⟩
  lift y to ℝ using ⟨hy1, hy2⟩
  rw [← EReal.coe_mul]
  exact isReal_coe _

theorem rsqrt_coe (r : ℝ) :
    Ideal.rsqrt (r : EReal) = if r < 0 then ⊥ else if r = 0 then ⊤ else (((Real.sqrt r)⁻¹ : ℝ) : EReal) := rfl

theorem rsqrt_top : Ideal.rsqrt ⊤ = 0 := rfl

/-- The inverse square root of `max y 1` is a real number, for every extended real `y`. -/
theorem rsqrt_max_one_real (y : EReal) : IsReal (Ideal.rsqrt (max y 1)) := by
  induction y using EReal.rec with
  | bot =>
    rw [max_eq_right bot_le, ← EReal.coe_one, rsqrt_coe, if_neg (by norm_num), if_neg (by norm_num)]
    exact isReal_coe _
  | top =>
    rw [max_eq_left le_top, rsqrt_top]
    exact ⟨EReal.zero_ne_top, EReal.zero_ne_bot⟩
  | coe r =>
    rw [← EReal.coe_one]
    rcases le_total r 1 with h | h
    · rw [max_eq_right (EReal.coe_le_coe_iff.mpr h), rsqrt_coe, if_neg (by norm_num), if_neg (by norm_num)]
      exact isReal_coe _
    · rw [max_eq_left (EReal.coe_le_coe_iff.mpr h), rsqrt_coe, if_neg (by linarith), if_neg (by linarith)]
      exact isReal_coe _

end Cert.Reals

end
-- ==== Proof.NormFinite.lean ====
/-
  Every edge weight is a real number.

  `norm e` is a product of two entries of `dinv`, and `dinv n = rsqrt (max (deg n) 1)`.  Whatever extended real
  `deg n` is, `max (deg n) 1` is either plus infinity, whose inverse square root is `0`, or a real number that is
  at least `1`, whose inverse square root is a positive real.  So every `dinv n`, and with it every `norm e`, is
  neither infinity: the degrees need not be bounded for this.
-/
import proofs.«150885_j26809185861879_2_alg».proof.Proof.KernelValue
import proofs.«150885_j26809185861879_2_alg».proof.Proof.Consts
import proofs.«150885_j26809185861879_2_alg».proof.Proof.RealLemmas

noncomputable section

namespace Cert.KernelIdeal.Val

open Idealize.ShloMosaic Idealize.ShloMosaic.ValueIdx
open Cert.KernelIdeal Cert.KernelIdeal.Gen Cert.Reals

/-- The host's inverse square root, entry by entry. -/
theorem hostRsqrt_apply {s : Shape} (x : FVec Ideal s .f32) (i : s.Idx) : Host.rsqrt x i = Ideal.rsqrt (x i) := rfl

/-- A gather reads the operand at the index its dimension numbers name. -/
theorem gather_apply {α : Type} {s si t : Shape} {w : Nat} (d : GatherDims s si t) (x : s.Idx → α) (idx : IVec si w) (j : t.Idx) :
    Host.gather d x idx j = x (d.operandIdx j idx) := rfl

/-- The splat of the word of `1.0` is `1` at every entry. -/
theorem one_apply (i : S100000.Idx) :
    broadcastInDim S100000 ![] bcast_S_S100000 (constant (F := Ideal) S_ .f32 0x3F800000#32) i = 1 := by
  rw [broadcastInDim_apply ![] bcast_S_S100000 _ i ix0 (fun a => a.elim0)]
  exact Cert.Consts.ofBits_one

variable (a0 : IVec S2x1600000 32)

/-- Every inverse-square-root degree is a real number. -/
theorem dinv_real (i : S100000.Idx) : IsReal (dinv a0 i) := by
  unfold dinv
  rw [hostRsqrt_apply, maximumf_apply, one_apply]
  exact rsqrt_max_one_real _

/-- Every edge weight is a real number. -/
theorem norm_real (e : S1700000.Idx) : IsReal (norm a0 e) := by
  unfold norm
  rw [mulf_apply, gather_apply, gather_apply]
  exact IsReal.mul (dinv_real a0 _) (dinv_real a0 _)

/-- The same for the weights as a one-column array. -/
theorem normCol_real (i : S1700000x1.Idx) : normCol a0 i ≠ ⊤ ∧ normCol a0 i ≠ ⊥ := by
  obtain ⟨e, z, rfl⟩ : ∃ (e : Fin 1700000) (z : Fin 1), i = ix2 e z := ⟨i 0, i 1, eq_ix2 i⟩
  unfold normCol
  rw [broadcastInDim_apply ![0] bcast_S1700000_S1700000x1_0 (norm a0) (ix2 e z) (ix1 e) (fun a => by
    match a with
    | ⟨0, _⟩ =>
      show e.val = if (1700000 : Nat) = 1 then 0 else e.val
      rw [if_neg (by decide)])]
  exact norm_real a0 _

end Cert.KernelIdeal.Val

end
-- ==== Proof.LibFibreSum.lean ====
/-
  Sums over FIBRES, re-indexed along an embedding.

  A sum over the members of a finite type that satisfy a condition is unchanged when the members are renamed by an
  injective map whose image is exactly the members of a second finite type satisfying a second condition. This is the
  step between "the sum of a block's entries lying over one reduced index" and "the sum of the whole array's entries lying
  over the corresponding reduced index", when the block is the restriction of the array along an embedding of index sets.
-/
import Mathlib.Algebra.BigOperators.Group.Finset.Basic
import Mathlib.Data.Fintype.Basic

namespace Cert.LibFibreSum

/-- If `e` is injective, carries the members with `p` exactly onto the members with `q`, then summing `f ∘ e` over the
    former is summing `f` over the latter. -/
theorem sum_filter_emb {α β M : Type*} [Fintype α] [Fintype β] [AddCommMonoid M]
    (e : α → β) (p : α → Prop) (q : β → Prop) [DecidablePred p] [DecidablePred q] (f : β → M)
    (hinj : Function.Injective e) (hpq : ∀ a, p a ↔ q (e a)) (hsurj : ∀ b, q b → ∃ a, e a = b) :
    ∑ a ∈ Finset.univ.filter p, f (e a) = ∑ b ∈ Finset.univ.filter q, f b := by
  refine Finset.sum_bij (fun a _ => e a) ?_ ?_ ?_ ?_
  · intro a ha
    rw [Finset.mem_filter] at ha ⊢
    exact ⟨Finset.mem_univ _, (hpq a).mp ha.2⟩
  · intro a _ a' _ h
    exact hinj h
  · intro b hb
    rw [Finset.mem_filter] at hb
    obtain ⟨a, rfl⟩ := hsurj b hb.2
    exact ⟨a, Finset.mem_filter.mpr ⟨Finset.mem_univ _, (hpq a).mpr hb.2⟩, rfl⟩
  · intro a _
    rfl

end Cert.LibFibreSum
-- ==== Proof.LibRowIndex.lean ====
/-
  A ROW GATHER and a ROW SCATTER-ADD, read at an entry, for any sizes.

  A table `x : [N, F]` and an integer column `idx : [E, 1]`. The row gather builds `[E, F]`: row `e` of the result is the
  row of `x` that `idx[e, 0]` names, the integer read signed and clamped into `[0, N − 1]` (`srcRow`). The row
  scatter-add adds each row `e` of `upd : [E, F]` onto the row of `x` that `idx[e, 0]` names, the integer read signed and
  NOT clamped: a row whose integer is outside `[0, N)` is dropped (`destRow`). Neither row depends on `F`.
  `rowGather_apply` and `rowScatterAdd_apply` read the two operations at entry `(e, f)`, `(n, f)`; the dimension
  numbers are a variable with its fields given by equations, so the theorems apply to any record with these fields.
  `vecGather_mem`: a gather of a rank-1 operand reads the operand somewhere.
-/
import Idealize.ShloMosaic.Lib.ValueIdx
import proofs.«150885_j26809185861879_2_alg».proof.Proof.LibFibreSum

noncomputable section

open scoped BigOperators

namespace Cert.LibRowIndex

open Idealize.ShloMosaic Idealize.ShloMosaic.ValueIdx

/-- Axis 1 is not in the list holding axis 0 alone. -/
private theorem one_not_mem : (1 : Fin 2) ∉ ([0] : List (Fin 2)) := by decide
/-- Axis 0 is in the list holding axis 0 alone. -/
private theorem zero_mem : (0 : Fin 2) ∈ ([0] : List (Fin 2)) := List.mem_singleton.mpr rfl

/-- The source row of result row `e` of a row gather from `N` rows: the integer `idx[e, 0]`, read signed and clamped into
    `[0, N − 1]`. -/
def srcRow (N : Nat) (hN : 0 < N) {E w : Nat} (idx : IVec ⟨2, ![E, 1]⟩ w) (e : Fin E) : Fin N :=
  ⟨min (idx (ix2 e (0 : Fin 1))).toInt.toNat (N - 1), by omega⟩

/-- The dimension numbers of a row gather: operand `[N, F]`, start indices `[E, 1]`, result `[E, F]`; axis 0 collapsed and
    indexed, axis 1 the offset axis, slices of one whole row. -/
private abbrev rowG (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row gather with these dimension numbers at entry `(e, f)`: the operand at row `srcRow e`, column `f`. -/
private theorem rowG_apply {α : Type} {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowG N E F wf) x idx (ix2 e f) = x (ix2 (srcRow N hN idx e) f) := by
  unfold Host.gather
  congr 1
  funext a
  refine Fin.ext ?_
  match a with
  | ⟨0, _⟩ =>
    show (rowG N E F wf).start (ix2 e f) idx 0 + (rowG N E F wf).batchCoord (ix2 e f) 0
      + (rowG N E F wf).offCoord (ix2 e f) 0 = _
    rw [GatherDims.batchCoord_eq_zero _ _ _ List.not_mem_nil,
      GatherDims.offCoord_eq_zero _ _ _ (fun h => ((GatherDims.mem_sKept _ _).mp h).1 zero_mem)]
    simp only [Nat.add_zero]
    unfold GatherDims.start
    rw [dif_pos (show (0 : Fin 2) ∈ (rowG N E F wf).startIndexMap from zero_mem)]
    have hsi : (rowG N E F wf).siIdx (ix2 e f) ⟨List.idxOf (0 : Fin 2) (rowG N E F wf).startIndexMap,
        List.idxOf_lt_length_iff.2 zero_mem⟩ = ix2 e (0 : Fin 1) := by
      funext b; refine Fin.ext ?_
      match b with
      | ⟨0, _⟩ => rfl
      | ⟨1, _⟩ => rfl
    rw [hsi]
    rfl
  | ⟨1, _⟩ =>
    show (rowG N E F wf).start (ix2 e f) idx 1 + (rowG N E F wf).batchCoord (ix2 e f) 1
      + (rowG N E F wf).offCoord (ix2 e f) 1 = _
    rw [GatherDims.batchCoord_eq_zero _ _ _ List.not_mem_nil]
    unfold GatherDims.start
    rw [dif_neg (show (1 : Fin 2) ∉ (rowG N E F wf).startIndexMap from one_not_mem)]
    unfold GatherDims.offCoord
    rw [dif_pos ((GatherDims.mem_sKept _ _).mpr ⟨one_not_mem, List.not_mem_nil⟩)]
    simp only [Nat.zero_add]
    rfl

/-- THE ROW GATHER READ AT AN ENTRY. A gather of whole rows of `x : [N, F]` along axis 0, the rows read off
    `idx : [E, 1]`: entry `(e, f)` of the result is `x` at row `srcRow e` (signed, clamped), column `f`. -/
theorem rowGather_apply {α : Type} {N E F w : Nat} (hN : 0 < N)
    (d : GatherDims ⟨2, ![N, F]⟩ ⟨2, ![E, 1]⟩ ⟨2, ![E, F]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, F])
    (x : (⟨2, ![N, F]⟩ : Shape).Idx → α) (idx : IVec ⟨2, ![E, 1]⟩ w) (e : Fin E) (f : Fin F) :
    Host.gather d x idx (ix2 e f) = x (ix2 (srcRow N hN idx e) f) := by
  obtain ⟨od, cd, ob, sb, sm, iv, ss, wf⟩ := d
  simp only at hod hcd hob hsb hsm hiv hss
  subst hod hcd hob hsb hsm hiv hss
  exact rowG_apply hN wf x idx e f

/-- The destination row of update row `e` of a row scatter into `N` rows: the integer `idx[e, 0]` read signed, when it is
    inside `[0, N)`; none (the update row is dropped) when it is not. -/
def destRow (N : Nat) {E w : Nat} (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- The dimension numbers of a row scatter: operand `[N, F]`, scatter indices `[E, 1]`, updates `[E, F]`; axis 0 inserted
    and indexed, axis 1 the window axis. -/
private abbrev rowS (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

section Scatter
variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- An operand axis is a kept axis of a scatter exactly when it is not an inserted window axis. -/
private theorem mem_sKept {s si u : Shape} (d : ScatterDims s si u) (a : Fin s.rank) :
    a ∈ d.sKept ↔ a ∉ d.insertedWindowDims := by
  simp [ScatterDims.sKept, Shape.kept, List.mem_filter, List.mem_finRange]

/-- On axis 0 the window of update `(e, f)` starts at the integer `idx[e, 0]`, read signed. -/
private theorem rowS_start0 :
    (rowS N E F wf).start (ix2 e f) idx (0 : Fin 2) = (idx (ix2 e (0 : Fin 1))).toInt := by
  unfold ScatterDims.start
  rw [dif_pos (show (0 : Fin 2) ∈ (rowS N E F wf).scatterDimsToOperandDims from zero_mem)]
  have hsi : (rowS N E F wf).siIdx (ix2 e f) ⟨List.idxOf (0 : Fin 2) (rowS N E F wf).scatterDimsToOperandDims,
      List.idxOf_lt_length_iff.2 zero_mem⟩ = ix2 e (0 : Fin 1) := by
    funext b; refine Fin.ext ?_
    match b with
    | ⟨0, _⟩ => rfl
    | ⟨1, _⟩ => rfl
  rw [hsi]

/-- On axis 1 the window of every update starts at 0. -/
private theorem rowS_start1 : (rowS N E F wf).start (ix2 e f) idx (1 : Fin 2) = 0 := by
  unfold ScatterDims.start
  rw [dif_neg (show (1 : Fin 2) ∉ (rowS N E F wf).scatterDimsToOperandDims from one_not_mem)]

/-- On axis 0 the window coordinate of every update is 0. -/
private theorem rowS_window0 : (rowS N E F wf).window (ix2 e f) (0 : Fin 2) = 0 := by
  unfold ScatterDims.window
  rw [dif_neg (fun h => (mem_sKept _ _).mp h zero_mem)]

/-- On axis 1 the window coordinate of update `(e, f)` is `f`. -/
private theorem rowS_window1 : (rowS N E F wf).window (ix2 e f) (1 : Fin 2) = f.val := by
  unfold ScatterDims.window
  rw [dif_pos ((mem_sKept _ _).mpr one_not_mem)]
  rfl

end Scatter

section Scatter2
variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- Update `(e, f)` of a row scatter lands at `(n, f)` with `n` the destination row of `e`, and nowhere when `e` has none. -/
private theorem rowS_resultIdx :
    (rowS N E F wf).resultIdx? (ix2 e f) idx = (destRow N idx e).map (fun n => ix2 n f) := by
  unfold ScatterDims.resultIdx? destRow
  by_cases h : 0 ≤ (idx (ix2 e (0 : Fin 1))).toInt ∧ (idx (ix2 e (0 : Fin 1))).toInt < (N : Int)
  · have H : ∀ a : Fin 2, 0 ≤ (rowS N E F wf).start (ix2 e f) idx a + ((rowS N E F wf).window (ix2 e f) a : Int) ∧
        (rowS N E F wf).start (ix2 e f) idx a + ((rowS N E F wf).window (ix2 e f) a : Int)
          < (((⟨2, ![N, F]⟩ : Shape).size a : Nat) : Int) := by
      refine Fin.forall_fin_two.mpr ⟨?_, ?_⟩
      · rw [rowS_start0, rowS_window0]
        show 0 ≤ _ + ((0 : Nat) : Int) ∧ _ + ((0 : Nat) : Int) < ((N : Nat) : Int)
        omega
      · rw [rowS_start1, rowS_window1]
        show 0 ≤ (0 : Int) + ((f.val : Nat) : Int) ∧ (0 : Int) + ((f.val : Nat) : Int) < ((F : Nat) : Int)
        have := f.isLt
        omega
    rw [dif_pos H, dif_pos h]
    simp only [Option.map_some]
    congr 1
    funext a
    refine Fin.ext ?_
    match a with
    | ⟨0, _⟩ =>
      show ((rowS N E F wf).start (ix2 e f) idx (0 : Fin 2) + ((rowS N E F wf).window (ix2 e f) (0 : Fin 2) : Int)).toNat
        = (idx (ix2 e (0 : Fin 1))).toInt.toNat
      rw [rowS_start0, rowS_window0]
      simp
    | ⟨1, _⟩ =>
      show ((rowS N E F wf).start (ix2 e f) idx (1 : Fin 2) + ((rowS N E F wf).window (ix2 e f) (1 : Fin 2) : Int)).toNat
        = f.val
      rw [rowS_start1, rowS_window1]
      simp
  · have H : ¬ ∀ a : Fin 2, 0 ≤ (rowS N E F wf).start (ix2 e f) idx a + ((rowS N E F wf).window (ix2 e f) a : Int) ∧
        (rowS N E F wf).start (ix2 e f) idx a + ((rowS N E F wf).window (ix2 e f) a : Int)
          < (((⟨2, ![N, F]⟩ : Shape).size a : Nat) : Int) := by
      intro H
      have h0 := H 0
      rw [rowS_start0, rowS_window0] at h0
      apply h
      have h0' : 0 ≤ (idx (ix2 e (0 : Fin 1))).toInt + ((0 : Nat) : Int) ∧
          (idx (ix2 e (0 : Fin 1))).toInt + ((0 : Nat) : Int) < ((N : Nat) : Int) := h0
      omega
    rw [dif_neg H, dif_neg h]
    rfl

end Scatter2

section Scatter3
variable {N E F w : Nat}

/-- Pairing an optional row with column `q` gives the entry `(n, f)` exactly when the row is `n` and `q` is `f`. -/
private theorem map_ix2_eq_some {E' F' : Nat} (o : Option (Fin E')) (q f : Fin F') (n : Fin E') :
    o.map (fun m => (ix2 m q : (⟨2, ![E', F']⟩ : Shape).Idx)) = some (ix2 n f) ↔ o = some n ∧ q = f := by
  cases o with
  | none => simp
  | some m =>
    simp only [Option.map_some, Option.some.injEq]
    constructor
    · intro h
      exact ⟨congrFun h 0, congrFun h 1⟩
    · rintro ⟨rfl, rfl⟩
      rfl

/-- The row scatter-add with these dimension numbers at entry `(n, f)`: the sum over the update entries landing there,
    re-indexed along `e ↦ (e, f)` onto the update rows whose destination row is `n`. -/
private theorem rowS_scatterAdd (wf : ScatterDims.WF ⟨2, ![N, F]⟩ ⟨2, ![E, 1]⟩ ⟨2, ![E, F]⟩ [1] [0] [0] 1)
    (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd (rowS N E F wf) x idx upd (ix2 n f)
      = x (ix2 n f) + ∑ e ∈ Finset.univ.filter (fun e : Fin E => destRow N idx e = some n), upd (ix2 e f) := by
  unfold Ideal.hostScatterAdd
  congr 1
  symm
  refine Cert.LibFibreSum.sum_filter_emb (fun e : Fin E => (ix2 e f : (⟨2, ![E, F]⟩ : Shape).Idx))
    (fun e => destRow N idx e = some n) (fun j => (rowS N E F wf).resultIdx? j idx = some (ix2 n f)) upd ?_ ?_ ?_
  · intro a b hab
    exact congrFun hab 0
  · intro a
    rw [rowS_resultIdx, map_ix2_eq_some]
    exact ⟨fun h => ⟨h, rfl⟩, fun h => h.1⟩
  · intro j hj
    obtain ⟨p, q, rfl⟩ : ∃ (p : Fin E) (q : Fin F), j = ix2 p q := ⟨j 0, j 1, eq_ix2 j⟩
    rw [rowS_resultIdx, map_ix2_eq_some] at hj
    exact ⟨p, by rw [hj.2]⟩

end Scatter3

/-- THE ROW SCATTER-ADD READ AT AN ENTRY. An accumulating scatter of the rows of `upd : [E, F]` into `x : [N, F]` along
    axis 0, the destination rows read off `idx : [E, 1]`: entry `(n, f)` of the result is `x`'s plus the sum, over the
    rows `e` whose destination row (`destRow`) is `n`, of `upd`'s entry `(e, f)`. -/
theorem rowScatterAdd_apply {N E F w : Nat} (d : ScatterDims ⟨2, ![N, F]⟩ ⟨2, ![E, 1]⟩ ⟨2, ![E, F]⟩)
    (huw : d.updateWindowDims = [1]) (hiw : d.insertedWindowDims = [0]) (hsd : d.scatterDimsToOperandDims = [0])
    (hiv : d.indexVectorDim = 1)
    (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd d x idx upd (ix2 n f)
      = x (ix2 n f) + ∑ e ∈ Finset.univ.filter (fun e : Fin E => destRow N idx e = some n), upd (ix2 e f) := by
  obtain ⟨uw, iw, sd, iv, wf⟩ := d
  simp only at huw hiw hsd hiv
  subst huw hiw hsd hiv
  exact rowS_scatterAdd wf x idx upd n f

/-- The same for the host operation of a program at the ideal instance (`Host.scatterAdd`). -/
theorem rowHostScatterAdd_apply {φ : FTy} {N E F w : Nat} (d : ScatterDims ⟨2, ![N, F]⟩ ⟨2, ![E, 1]⟩ ⟨2, ![E, F]⟩)
    (huw : d.updateWindowDims = [1]) (hiw : d.insertedWindowDims = [0]) (hsd : d.scatterDimsToOperandDims = [0])
    (hiv : d.indexVectorDim = 1)
    (x : FVec Ideal ⟨2, ![N, F]⟩ φ) (idx : IVec ⟨2, ![E, 1]⟩ w)
    (upd : FVec Ideal ⟨2, ![E, F]⟩ φ) (n : Fin N) (f : Fin F) :
    Host.scatterAdd d x idx upd (ix2 n f)
      = x (ix2 n f) + ∑ e ∈ Finset.univ.filter (fun e : Fin E => destRow N idx e = some n), upd (ix2 e f) :=
  rowScatterAdd_apply d huw hiw hsd hiv x idx upd n f

/-- A gather of a rank-1 operand reads, at every result index, the operand at SOME index. -/
theorem vecGather_mem {α : Type} {N E w : Nat} (d : GatherDims ⟨1, ![N]⟩ ⟨2, ![E, 1]⟩ ⟨1, ![E]⟩)
    (x : (⟨1, ![N]⟩ : Shape).Idx → α) (idx : IVec ⟨2, ![E, 1]⟩ w) (j : (⟨1, ![E]⟩ : Shape).Idx) :
    ∃ i, Host.gather d x idx j = x i :=
  ⟨d.operandIdx j idx, rfl⟩

end Cert.LibRowIndex

end
-- ==== Proof.LibGraphAlgebra.lean ====
/-
  GRAPH ALGEBRA over the extended reals, for FINITE entries.

  An extended real is FINITE when it is neither `⊤` nor `⊥`, that is, when it is a real number. On finite entries the
  extended reals' sums and products are the reals', so the laws of a commutative ring hold. This file gives: the
  coercion of a finite real sum (`coe_sum`); the closure of finiteness under sums, products, finite sums and a two-way
  choice; and the EXCHANGE LAW of a graph layer — aggregating rows along edges and then projecting each aggregated row
  by a matrix is the same as projecting each row first and aggregating the projected rows:
  `∑ k, (∑ e ∈ S, X (σ e) k * c e) * W k f = ∑ e ∈ S, (∑ k, X (σ e) k * W k f) * c e`.
-/
import Mathlib.Data.EReal.Basic
import Mathlib.Data.EReal.Operations
import Mathlib.Algebra.BigOperators.Ring.Finset
import Mathlib.Algebra.BigOperators.Group.Finset.Sigma
import Mathlib.Tactic.Ring

open scoped BigOperators

namespace Cert.LibGraphAlgebra

/-- The coercion from the reals to the extended reals carries a finite sum to the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A real number, read as an extended real, is finite. -/
theorem finite_coe (r : ℝ) : (r : EReal) ≠ ⊤ ∧ (r : EReal) ≠ ⊥ := ⟨EReal.coe_ne_top r, EReal.coe_ne_bot r⟩

/-- A finite extended real is a real number. -/
theorem exists_coe_of_finite {x : EReal} (hx : x ≠ ⊤ ∧ x ≠ ⊥) : ∃ r : ℝ, x = (r : EReal) :=
  ⟨x.toReal, (EReal.coe_toReal hx.1 hx.2).symm⟩

/-- An extended real is finite exactly when it is a real number. -/
theorem finite_iff_exists_coe {x : EReal} : (x ≠ ⊤ ∧ x ≠ ⊥) ↔ ∃ r : ℝ, x = (r : EReal) :=
  ⟨exists_coe_of_finite, fun ⟨r, hr⟩ => hr ▸ finite_coe r⟩

/-- Zero is finite. -/
theorem finite_zero : (0 : EReal) ≠ ⊤ ∧ (0 : EReal) ≠ ⊥ := ⟨EReal.zero_ne_top, EReal.zero_ne_bot⟩

/-- The sum of two finite extended reals is finite. -/
theorem finite_add {x y : EReal} (hx : x ≠ ⊤ ∧ x ≠ ⊥) (hy : y ≠ ⊤ ∧ y ≠ ⊥) : x + y ≠ ⊤ ∧ x + y ≠ ⊥ := by
  obtain ⟨a, rfl⟩ := exists_coe_of_finite hx
  obtain ⟨b, rfl⟩ := exists_coe_of_finite hy
  rw [← EReal.coe_add]
  exact finite_coe _

/-- The product of two finite extended reals is finite. -/
theorem finite_mul {x y : EReal} (hx : x ≠ ⊤ ∧ x ≠ ⊥) (hy : y ≠ ⊤ ∧ y ≠ ⊥) : x * y ≠ ⊤ ∧ x * y ≠ ⊥ := by
  obtain ⟨a, rfl⟩ := exists_coe_of_finite hx
  obtain ⟨b, rfl⟩ := exists_coe_of_finite hy
  rw [← EReal.coe_mul]
  exact finite_coe _

/-- The negation of a finite extended real is finite. -/
theorem finite_neg {x : EReal} (hx : x ≠ ⊤ ∧ x ≠ ⊥) : -x ≠ ⊤ ∧ -x ≠ ⊥ := by
  obtain ⟨a, rfl⟩ := exists_coe_of_finite hx
  rw [← EReal.coe_neg]
  exact finite_coe _

/-- The difference of two finite extended reals is finite. -/
theorem finite_sub {x y : EReal} (hx : x ≠ ⊤ ∧ x ≠ ⊥) (hy : y ≠ ⊤ ∧ y ≠ ⊥) : x - y ≠ ⊤ ∧ x - y ≠ ⊥ := by
  obtain ⟨a, rfl⟩ := exists_coe_of_finite hx
  obtain ⟨b, rfl⟩ := exists_coe_of_finite hy
  rw [← EReal.coe_sub]
  exact finite_coe _

/-- A finite sum of finite extended reals is finite. -/
theorem finite_sum {ι : Type*} (s : Finset ι) (f : ι → EReal) (hf : ∀ i ∈ s, f i ≠ ⊤ ∧ f i ≠ ⊥) :
    (∑ i ∈ s, f i) ≠ ⊤ ∧ (∑ i ∈ s, f i) ≠ ⊥ :=
  Finset.sum_induction f (fun x => x ≠ ⊤ ∧ x ≠ ⊥) (fun _ _ ha hb => finite_add ha hb) finite_zero hf

/-- A sum over a whole finite type of finite extended reals is finite. -/
theorem finite_sum_univ {ι : Type*} [Fintype ι] (f : ι → EReal) (hf : ∀ i, f i ≠ ⊤ ∧ f i ≠ ⊥) :
    (∑ i, f i) ≠ ⊤ ∧ (∑ i, f i) ≠ ⊥ :=
  finite_sum Finset.univ f fun i _ => hf i

/-- A choice between two finite extended reals is finite. -/
theorem finite_ite {p : Prop} [Decidable p] {x y : EReal} (hx : x ≠ ⊤ ∧ x ≠ ⊥) (hy : y ≠ ⊤ ∧ y ≠ ⊥) :
    (if p then x else y) ≠ ⊤ ∧ (if p then x else y) ≠ ⊥ := by
  split
  · exact hx
  · exact hy

/-- The leaky rectifier of a finite entry with a finite slope — the entry itself on one branch, the slope times the
    entry on the other — is finite, whatever decides the branch. -/
theorem finite_leaky {p : Prop} [Decidable p] {a x : EReal} (ha : a ≠ ⊤ ∧ a ≠ ⊥) (hx : x ≠ ⊤ ∧ x ≠ ⊥) :
    (if p then x else a * x) ≠ ⊤ ∧ (if p then x else a * x) ≠ ⊥ :=
  finite_ite hx (finite_mul ha hx)

/-- The maximum of two finite extended reals is finite. -/
theorem finite_max {x y : EReal} (hx : x ≠ ⊤ ∧ x ≠ ⊥) (hy : y ≠ ⊤ ∧ y ≠ ⊥) : max x y ≠ ⊤ ∧ max x y ≠ ⊥ := by
  rcases max_choice x y with h | h <;> rw [h] <;> assumption

/-- THE EXCHANGE LAW, finite entries. Aggregating the rows `X (σ e)` over the edges `e ∈ S` with weights `c e` and
    then multiplying the aggregated row by the matrix `W` gives, at each output column `f`, the same as multiplying
    each row by `W` first and aggregating the products with the same weights. -/
theorem exchange {ε ν κ φ : Type*} [Fintype κ] (X : ν → κ → EReal) (W : κ → φ → EReal) (c : ε → EReal)
    (σ : ε → ν) (S : Finset ε) (hX : ∀ n k, X n k ≠ ⊤ ∧ X n k ≠ ⊥) (hW : ∀ k f, W k f ≠ ⊤ ∧ W k f ≠ ⊥)
    (hc : ∀ e, c e ≠ ⊤ ∧ c e ≠ ⊥) (f : φ) :
    ∑ k, (∑ e ∈ S, X (σ e) k * c e) * W k f = ∑ e ∈ S, (∑ k, X (σ e) k * W k f) * c e := by
  choose X' hX' using fun n k => exists_coe_of_finite (hX n k)
  choose W' hW' using fun k f => exists_coe_of_finite (hW k f)
  choose c' hc' using fun e => exists_coe_of_finite (hc e)
  simp only [hX', hW', hc', ← EReal.coe_mul, ← coe_sum]
  congr 1
  simp only [Finset.sum_mul]
  rw [Finset.sum_comm]
  refine Finset.sum_congr rfl fun e _ => Finset.sum_congr rfl fun k _ => ?_
  ring

/-- The exchange law with each aggregation started from zero, as an accumulating scatter writes it. -/
theorem exchange_zero_add {ε ν κ φ : Type*} [Fintype κ] (X : ν → κ → EReal) (W : κ → φ → EReal) (c : ε → EReal)
    (σ : ε → ν) (S : Finset ε) (hX : ∀ n k, X n k ≠ ⊤ ∧ X n k ≠ ⊥) (hW : ∀ k f, W k f ≠ ⊤ ∧ W k f ≠ ⊥)
    (hc : ∀ e, c e ≠ ⊤ ∧ c e ≠ ⊥) (f : φ) :
    ∑ k, (0 + ∑ e ∈ S, X (σ e) k * c e) * W k f = 0 + ∑ e ∈ S, (∑ k, X (σ e) k * W k f) * c e := by
  simp only [zero_add]
  exact exchange X W c σ S hX hW hc f

end Cert.LibGraphAlgebra
-- ==== Proof.LibAggregate.lean ====
/-
  THE AGGREGATION OF A GRAPH LAYER, read at an entry, and its exchange with a matrix product.

  A table `X : [N, K]`, two integer columns `I, J : [E, 1]` (the destination and the source row of each edge) and a
  column of weights `c : [E, 1]`. The aggregation `aggr` gathers the rows of `X` at the source rows, scales row `e` by
  `c[e, 0]`, and scatter-adds the scaled rows at the destination rows into a table of zeros. Read at `(n, k)` it is the
  sum, over the edges `e` whose destination row is `n`, of `X[src e, k] * c[e, 0]` (`aggr_apply`). On finite entries it
  is finite (`aggr_finite`), a matrix product of finite arrays is finite (`mm_finite`), and aggregating and then
  multiplying by a matrix is multiplying first and then aggregating (`mm_aggr`).
-/
import Idealize.ShloMosaic.Lib.Pipeline.Value
import Idealize.ShloMosaic.PureOps.Ideal.Laws
import proofs.«150885_j26809185861879_2_alg».proof.Proof.LibRowIndex
import proofs.«150885_j26809185861879_2_alg».proof.Proof.LibGraphAlgebra
import proofs.«150885_j26809185861879_2_alg».proof.Proof.LibMatmulRead

noncomputable section

open scoped BigOperators

namespace Cert.LibAggregate

open Idealize.ShloMosaic Idealize.ShloMosaic.ValueIdx Cert.LibRowIndex Cert.LibGraphAlgebra Cert.GCN

/-- The dimension numbers `g` are those of a row gather: whole rows of `[N, F]` along axis 0, read off `[E, 1]`. -/
structure IsRowGather {N E F : Nat} (g : GatherDims ⟨2, ![N, F]⟩ ⟨2, ![E, 1]⟩ ⟨2, ![E, F]⟩) : Prop where
  od : g.offsetDims = [1]
  cd : g.collapsedSliceDims = [0]
  ob : g.operandBatchingDims = []
  sb : g.startIndicesBatchingDims = []
  sm : g.startIndexMap = [0]
  iv : g.indexVectorDim = 1
  ss : g.sliceSizes = ![1, F]

/-- The dimension numbers `s` are those of a row scatter: whole rows of `[E, F]` onto rows of `[N, F]`, read off `[E, 1]`. -/
structure IsRowScatter {N E F : Nat} (s : ScatterDims ⟨2, ![N, F]⟩ ⟨2, ![E, 1]⟩ ⟨2, ![E, F]⟩) : Prop where
  uw : s.updateWindowDims = [1]
  iw : s.insertedWindowDims = [0]
  sd : s.scatterDimsToOperandDims = [0]
  iv : s.indexVectorDim = 1

/-- The aggregation: gather the rows of `X` at the source rows `J`, scale row `e` by `c[e, 0]`, scatter-add at the
    destination rows `I` into zeros. -/
def aggr {N E K w : Nat} (s : ScatterDims ⟨2, ![N, K]⟩ ⟨2, ![E, 1]⟩ ⟨2, ![E, K]⟩)
    (g : GatherDims ⟨2, ![N, K]⟩ ⟨2, ![E, 1]⟩ ⟨2, ![E, K]⟩)
    (hz : (⟨0, ![]⟩ : Shape).BroadcastsInDim ⟨2, ![N, K]⟩ (![] : Fin 0 → Fin 2))
    (hc : (⟨2, ![E, 1]⟩ : Shape).BroadcastsInDim ⟨2, ![E, K]⟩ (![0, 1] : Fin 2 → Fin 2))
    (I J : IVec ⟨2, ![E, 1]⟩ w) (c : FVec Ideal ⟨2, ![E, 1]⟩ .f32) (X : FVec Ideal ⟨2, ![N, K]⟩ .f32) :
    FVec Ideal ⟨2, ![N, K]⟩ .f32 :=
  Host.scatterAdd s (broadcastInDim ⟨2, ![N, K]⟩ ![] hz (constant (F := Ideal) ⟨0, ![]⟩ .f32 0x00000000#32)) I
    (mulf (Host.gather g X J) (broadcastInDim ⟨2, ![E, K]⟩ ![0, 1] hc c))

/-- A column `c : [E, 1]` spread over `K` columns reads, at `(e, k)`, `c[e, 0]`. -/
theorem spreadCol_apply {E K : Nat} (c : FVec Ideal ⟨2, ![E, 1]⟩ .f32)
    (hc : (⟨2, ![E, 1]⟩ : Shape).BroadcastsInDim ⟨2, ![E, K]⟩ (![0, 1] : Fin 2 → Fin 2)) (e : Fin E) (k : Fin K) :
    broadcastInDim ⟨2, ![E, K]⟩ ![0, 1] hc c (ix2 e k) = c (ix2 e (0 : Fin 1)) := by
  refine broadcastInDim_apply ![0, 1] hc c (ix2 e k) (ix2 e (0 : Fin 1)) fun a => ?_
  match a with
  | ⟨0, _⟩ =>
    show e.val = if E = 1 then 0 else e.val
    split
    · have := e.isLt; omega
    · rfl
  | ⟨1, _⟩ => rfl

/-- THE AGGREGATION READ AT AN ENTRY: at `(n, k)`, the sum over the edges `e` whose destination row is `n` of the
    source row's entry `X[src e, k]` times the weight `c[e, 0]`. -/
theorem aggr_apply {N E K w : Nat} (hN : 0 < N) (s : ScatterDims ⟨2, ![N, K]⟩ ⟨2, ![E, 1]⟩ ⟨2, ![E, K]⟩)
    (g : GatherDims ⟨2, ![N, K]⟩ ⟨2, ![E, 1]⟩ ⟨2, ![E, K]⟩) (hs : IsRowScatter s) (hg : IsRowGather g)
    (hz : (⟨0, ![]⟩ : Shape).BroadcastsInDim ⟨2, ![N, K]⟩ (![] : Fin 0 → Fin 2))
    (hc : (⟨2, ![E, 1]⟩ : Shape).BroadcastsInDim ⟨2, ![E, K]⟩ (![0, 1] : Fin 2 → Fin 2))
    (I J : IVec ⟨2, ![E, 1]⟩ w) (c : FVec Ideal ⟨2, ![E, 1]⟩ .f32) (X : FVec Ideal ⟨2, ![N, K]⟩ .f32)
    (n : Fin N) (k : Fin K) :
    aggr s g hz hc I J c X (ix2 n k)
      = ∑ e ∈ Finset.univ.filter (fun e : Fin E => destRow N I e = some n),
          X (ix2 (srcRow N hN J e) k) * c (ix2 e (0 : Fin 1)) := by
  unfold aggr
  rw [rowHostScatterAdd_apply s hs.uw hs.iw hs.sd hs.iv,
    broadcastInDim_apply ![] hz _ (ix2 n k) ix0 (fun a => a.elim0)]
  show Ideal.ofBits .f32 0x00000000#32 + _ = _
  rw [Ideal.ofBits_zero_f32, zero_add]
  refine Finset.sum_congr rfl fun e _ => ?_
  rw [mulf_apply, rowGather_apply hN g hg.od hg.cd hg.ob hg.sb hg.sm hg.iv hg.ss, spreadCol_apply]

/-- The aggregation of finite entries with finite weights is finite. -/
theorem aggr_finite {N E K w : Nat} (s : ScatterDims ⟨2, ![N, K]⟩ ⟨2, ![E, 1]⟩ ⟨2, ![E, K]⟩)
    (g : GatherDims ⟨2, ![N, K]⟩ ⟨2, ![E, 1]⟩ ⟨2, ![E, K]⟩) (hs : IsRowScatter s) (hg : IsRowGather g)
    (hz : (⟨0, ![]⟩ : Shape).BroadcastsInDim ⟨2, ![N, K]⟩ (![] : Fin 0 → Fin 2))
    (hc : (⟨2, ![E, 1]⟩ : Shape).BroadcastsInDim ⟨2, ![E, K]⟩ (![0, 1] : Fin 2 → Fin 2))
    (I J : IVec ⟨2, ![E, 1]⟩ w) (c : FVec Ideal ⟨2, ![E, 1]⟩ .f32) (X : FVec Ideal ⟨2, ![N, K]⟩ .f32)
    (hX : ∀ i, X i ≠ ⊤ ∧ X i ≠ ⊥) (hcf : ∀ i, c i ≠ ⊤ ∧ c i ≠ ⊥) :
    ∀ i, aggr s g hz hc I J c X i ≠ ⊤ ∧ aggr s g hz hc I J c X i ≠ ⊥ := by
  intro i
  obtain ⟨n, k, rfl⟩ : ∃ (n : Fin N) (k : Fin K), i = ix2 n k := ⟨i 0, i 1, eq_ix2 i⟩
  rw [aggr_apply (Fin.pos n) s g hs hg]
  exact finite_sum _ _ fun e _ => finite_mul (hX _) (hcf _)

/-- A matrix product of arrays of finite entries has finite entries. -/
theorem mm_finite {n k p : Nat} (A : Arr n k) (B : Arr k p) (hA : ∀ i, A i ≠ ⊤ ∧ A i ≠ ⊥) (hB : ∀ i, B i ≠ ⊤ ∧ B i ≠ ⊥) :
    ∀ i, mm A B i ≠ ⊤ ∧ mm A B i ≠ ⊥ := by
  intro i
  unfold mm
  exact finite_sum_univ _ fun d => finite_mul (hA _) (hB _)

/-- AGGREGATE-THEN-PROJECT IS PROJECT-THEN-AGGREGATE: on finite entries, the aggregation of `X` multiplied by `W` is the
    aggregation, over the same edges with the same weights, of `X` multiplied by `W`. -/
theorem mm_aggr {N E K P w : Nat} (hN : 0 < N)
    (sK : ScatterDims ⟨2, ![N, K]⟩ ⟨2, ![E, 1]⟩ ⟨2, ![E, K]⟩) (gK : GatherDims ⟨2, ![N, K]⟩ ⟨2, ![E, 1]⟩ ⟨2, ![E, K]⟩)
    (hsK : IsRowScatter sK) (hgK : IsRowGather gK)
    (hzK : (⟨0, ![]⟩ : Shape).BroadcastsInDim ⟨2, ![N, K]⟩ (![] : Fin 0 → Fin 2))
    (hcK : (⟨2, ![E, 1]⟩ : Shape).BroadcastsInDim ⟨2, ![E, K]⟩ (![0, 1] : Fin 2 → Fin 2))
    (sP : ScatterDims ⟨2, ![N, P]⟩ ⟨2, ![E, 1]⟩ ⟨2, ![E, P]⟩) (gP : GatherDims ⟨2, ![N, P]⟩ ⟨2, ![E, 1]⟩ ⟨2, ![E, P]⟩)
    (hsP : IsRowScatter sP) (hgP : IsRowGather gP)
    (hzP : (⟨0, ![]⟩ : Shape).BroadcastsInDim ⟨2, ![N, P]⟩ (![] : Fin 0 → Fin 2))
    (hcP : (⟨2, ![E, 1]⟩ : Shape).BroadcastsInDim ⟨2, ![E, P]⟩ (![0, 1] : Fin 2 → Fin 2))
    (I J : IVec ⟨2, ![E, 1]⟩ w) (c : FVec Ideal ⟨2, ![E, 1]⟩ .f32) (X : Arr N K) (W : Arr K P)
    (hX : ∀ i, X i ≠ ⊤ ∧ X i ≠ ⊥) (hW : ∀ i, W i ≠ ⊤ ∧ W i ≠ ⊥) (hcf : ∀ i, c i ≠ ⊤ ∧ c i ≠ ⊥) :
    mm (aggr sK gK hzK hcK I J c X) W = aggr sP gP hzP hcP I J c (mm X W) := by
  funext i
  obtain ⟨n, p, rfl⟩ : ∃ (n : Fin N) (p : Fin P), i = ix2 n p := ⟨i 0, i 1, eq_ix2 i⟩
  rw [mm_apply, aggr_apply hN sP gP hsP hgP]
  simp only [aggr_apply hN sK gK hsK hgK, mm_apply]
  exact exchange (fun n k => X (ix2 n k)) (fun k p => W (ix2 k p)) (fun e => c (ix2 e (0 : Fin 1)))
    (srcRow N hN J) _ (fun n k => hX _) (fun k p => hW _) (fun e => hcf _) p

end Cert.LibAggregate

end
-- ==== Proof.LayerReal.lean ====
/-
  The layer's pieces as a host program spells them, and that each piece keeps real numbers real.

  On the host the rectifier compares with a broadcast scalar zero and multiplies by a broadcast scalar slope; entry by
  entry that is `lrelu`.  A matrix product of arrays of real numbers, the sum with a row of real numbers, and the
  rectifier (its slope is a real number) all give arrays of real numbers.
-/
import proofs.«150885_j26809185861879_2_alg».proof.Proof.Layer
import proofs.«150885_j26809185861879_2_alg».proof.Proof.Consts
import proofs.«150885_j26809185861879_2_alg».proof.Proof.LibGraphAlgebra

noncomputable section

namespace Cert.Spec

open Idealize.ShloMosaic Idealize.ShloMosaic.ValueIdx Cert.GCN Cert.Layers Cert.LibGraphAlgebra

/-- The rectifier as a host program spells it is `lrelu`. -/
theorem host_lrelu {n p : Nat} (X : FVec Ideal ⟨2, ![n, p]⟩ .f32)
    (h : (⟨0, ![]⟩ : Shape).BroadcastsInDim ⟨2, ![n, p]⟩ (![] : Fin 0 → Fin 2)) :
    (select (cmpf .oge X (broadcastInDim ⟨2, ![n, p]⟩ ![] h (constant (F := Ideal) ⟨0, ![]⟩ .f32 0x00000000#32))) X
      (mulf (broadcastInDim ⟨2, ![n, p]⟩ ![] h (constant (F := Ideal) ⟨0, ![]⟩ .f32 0x3C23D70A#32)) X) : Arr n p) = lrelu X := by
  funext i
  rw [select_apply, cmpf_apply, mulf_apply,
    broadcastInDim_apply ![] h (constant (F := Ideal) ⟨0, ![]⟩ .f32 0x00000000#32) i ix0 (fun a => a.elim0),
    broadcastInDim_apply ![] h (constant (F := Ideal) ⟨0, ![]⟩ .f32 0x3C23D70A#32) i ix0 (fun a => a.elim0)]
  rfl

/-- The rectifier of a real number is a real number. -/
theorem lk_finite {x : EReal} (hx : x ≠ ⊤ ∧ x ≠ ⊥) : lk x ≠ ⊤ ∧ lk x ≠ ⊥ := by
  unfold lk Scalar.select
  exact finite_leaky ⟨Cert.Consts.slope_ne_top, Cert.Consts.slope_ne_bot⟩ hx

theorem lrelu_finite {n p : Nat} (X : Arr n p) (hX : ∀ i, X i ≠ ⊤ ∧ X i ≠ ⊥) : ∀ i, lrelu X i ≠ ⊤ ∧ lrelu X i ≠ ⊥ :=
  fun i => lk_finite (hX i)

theorem addRow_finite {n p : Nat} (X : Arr n p) (b : Arr 1 p) (hX : ∀ i, X i ≠ ⊤ ∧ X i ≠ ⊥) (hb : ∀ i, b i ≠ ⊤ ∧ b i ≠ ⊥) :
    ∀ i, addRow X b i ≠ ⊤ ∧ addRow X b i ≠ ⊥ :=
  fun i => finite_add (hX i) (hb _)

theorem asRow_finite {p : Nat} (b : Row p) (hb : ∀ i, b i ≠ ⊤ ∧ b i ≠ ⊥) : ∀ i, asRow b i ≠ ⊤ ∧ asRow b i ≠ ⊥ :=
  fun i => hb _

end Cert.Spec

end
-- ==== Proof.Bridge.lean ====
/-
  The idealized kernel and the idealized reference compute one function, on the extended reals, when every float
  input is a real number.

  Write `agg X` for: gather the rows of `X` at the source indices, scale row `e` by the weight `norm e`, and add the
  rows up at the destination indices.  The kernel computes, per layer, `lrelu ((agg X) · W + b)` — it aggregates
  first and multiplies after; the reference computes `lrelu (agg (X · W) + b)`.  The index tables and the weights
  are the same arrays in both programs.  `(agg X) · W = agg (X · W)` holds when the entries of `X`, `W` and the
  weights are real numbers (a finite sum of products may then be regrouped); the weights always are, the first
  layer's `X` and `W` are inputs, and the second layer's `X` is the first layer's result, real because every
  piece of a layer keeps real numbers real.
-/
import proofs.«150885_j26809185861879_2_alg».proof.Proof.KernelResult
import proofs.«150885_j26809185861879_2_alg».proof.Proof.NormFinite
import proofs.«150885_j26809185861879_2_alg».proof.Proof.RefRun
import proofs.«150885_j26809185861879_2_alg».proof.Proof.LibAggregate
import proofs.«150885_j26809185861879_2_alg».proof.Proof.LayerReal

noncomputable section

namespace Cert.Bridge

open Idealize.ShloMosaic Idealize.ShloMosaic.ValueIdx Cert.GCN Cert.Layers Cert.Spec Cert.LibAggregate Cert.LibRowIndex
open Cert.LibGraphAlgebra

variable (a0 : IVec ⟨2, ![2, 1600000]⟩ 32)

/-- The destination index table. -/
abbrev dstTab : IVec ⟨2, ![1700000, 1]⟩ 32 := Cert.KernelIdeal.Val.col (Cert.KernelIdeal.Val.dstRaw a0)
/-- The source index table. -/
abbrev srcTab : IVec ⟨2, ![1700000, 1]⟩ 32 := Cert.KernelIdeal.Val.col (Cert.KernelIdeal.Val.wrap (Cert.KernelIdeal.Val.srcRaw a0))
/-- The weights as a column. -/
abbrev wts : FVec Ideal ⟨2, ![1700000, 1]⟩ .f32 := Cert.KernelIdeal.Val.normCol a0

theorem wts_finite : ∀ i, wts a0 i ≠ ⊤ ∧ wts a0 i ≠ ⊥ := Cert.KernelIdeal.Val.normCol_real a0

section KernelSide
open Cert.KernelIdeal Cert.KernelIdeal.Gen

/-- The aggregation over two columns, with the kernel's dimension records. -/
abbrev kAgg2 (X : Arr 100000 2) : Arr 100000 2 :=
  aggr scatter_S100000x2_S1700000x1_S1700000x2_1_0_0_1 gather_S100000x2_S1700000x1_S1700000x2_1_0_n_n_0_1_12
    bcast_S_S100000x2 bcast_S1700000x1_S1700000x2_0_1 (dstTab a0) (srcTab a0) (wts a0) X

/-- The aggregation over sixty-four columns, with the kernel's dimension records. -/
abbrev kAgg64 (X : Arr 100000 64) : Arr 100000 64 :=
  aggr scatter_S100000x64_S1700000x1_S1700000x64_1_0_0_1 gather_S100000x64_S1700000x1_S1700000x64_1_0_n_n_0_1_164
    bcast_S_S100000x64 bcast_S1700000x1_S1700000x64_0_1 (dstTab a0) (srcTab a0) (wts a0) X

end KernelSide

section ReferenceSide
open Cert.ReferenceIdeal Cert.ReferenceIdeal.Gen

/-- The aggregation over sixty-four columns, with the reference's dimension records. -/
abbrev rAgg64 (X : Arr 100000 64) : Arr 100000 64 :=
  aggr scatter_S100000x64_S1700000x1_S1700000x64_1_0_0_1 gather_S100000x64_S1700000x1_S1700000x64_1_0_n_n_0_1_164
    bcast_S_S100000x64 bcast_S1700000x1_S1700000x64_0_1 (dstTab a0) (srcTab a0) (wts a0) X

/-- The aggregation over a hundred and twenty-eight columns, with the reference's dimension records. -/
abbrev rAgg128 (X : Arr 100000 128) : Arr 100000 128 :=
  aggr scatter_S100000x128_S1700000x1_S1700000x128_1_0_0_1 gather_S100000x128_S1700000x1_S1700000x128_1_0_n_n_0_1_1128
    bcast_S_S100000x128 bcast_S1700000x1_S1700000x128_0_1 (dstTab a0) (srcTab a0) (wts a0) X

end ReferenceSide

/-- First layer: aggregating two columns and then multiplying is multiplying and then aggregating sixty-four. -/
theorem mm_kAgg2 (X : Arr 100000 2) (W : Arr 2 64) (hX : ∀ i, X i ≠ ⊤ ∧ X i ≠ ⊥) (hW : ∀ i, W i ≠ ⊤ ∧ W i ≠ ⊥) :
    mm (kAgg2 a0 X) W = rAgg64 a0 (mm X W) :=
  mm_aggr (by decide) _ _ ⟨rfl, rfl, rfl, rfl⟩ ⟨rfl, rfl, rfl, rfl, rfl, rfl, rfl⟩ _ _ _ _ ⟨rfl, rfl, rfl, rfl⟩
    ⟨rfl, rfl, rfl, rfl, rfl, rfl, rfl⟩ _ _ (dstTab a0) (srcTab a0) (wts a0) X W hX hW (wts_finite a0)

/-- Second layer: the same from sixty-four columns to a hundred and twenty-eight. -/
theorem mm_kAgg64 (X : Arr 100000 64) (W : Arr 64 128) (hX : ∀ i, X i ≠ ⊤ ∧ X i ≠ ⊥) (hW : ∀ i, W i ≠ ⊤ ∧ W i ≠ ⊥) :
    mm (kAgg64 a0 X) W = rAgg128 a0 (mm X W) :=
  mm_aggr (by decide) _ _ ⟨rfl, rfl, rfl, rfl⟩ ⟨rfl, rfl, rfl, rfl, rfl, rfl, rfl⟩ _ _ _ _ ⟨rfl, rfl, rfl, rfl⟩
    ⟨rfl, rfl, rfl, rfl, rfl, rfl, rfl⟩ _ _ (dstTab a0) (srcTab a0) (wts a0) X W hX hW (wts_finite a0)

/-- The first layer's result on the reference's side is an array of real numbers. -/
theorem hidden_finite (x : Arr 100000 2) (w1 : Arr 2 64) (b1 : Row 64)
    (hx : ∀ i, x i ≠ ⊤ ∧ x i ≠ ⊥) (hw1 : ∀ i, w1 i ≠ ⊤ ∧ w1 i ≠ ⊥) (hb1 : ∀ i, b1 i ≠ ⊤ ∧ b1 i ≠ ⊥) :
    ∀ i, lrelu (addRow (rAgg64 a0 (mm x w1)) (asRow b1)) i ≠ ⊤ ∧ lrelu (addRow (rAgg64 a0 (mm x w1)) (asRow b1)) i ≠ ⊥ :=
  lrelu_finite _ (addRow_finite _ _
    (aggr_finite _ _ ⟨rfl, rfl, rfl, rfl⟩ ⟨rfl, rfl, rfl, rfl, rfl, rfl, rfl⟩ _ _ _ _ _ _ (mm_finite x w1 hx hw1) (wts_finite a0))
    (asRow_finite b1 hb1))

end Cert.Bridge

end
-- ==== Proof.BridgeMain.lean ====
/-
  Both programs' results in the same vocabulary, and their equality.

  The kernel's result term is `lrelu ((agg₆₄ (lrelu ((agg₂ x) · W₁ + b₁))) · W₂ + b₂)`; the reference's is
  `lrelu (agg₁₂₈ ((lrelu (agg₆₄ (x · W₁) + b₁)) · W₂) + b₂)` — its host matrix product is the plain product, its
  doubly broadcast bias is the bias as a row added to every row, and its rectifier is `lrelu`.  The two agree by
  moving each product across its aggregation.
-/
import proofs.«150885_j26809185861879_2_alg».proof.Proof.Bridge

noncomputable section

namespace Cert.Bridge

open Idealize.ShloMosaic Idealize.ShloMosaic.ValueIdx Cert.GCN Cert.Layers Cert.Spec Cert.LibAggregate Cert.LibRowIndex

variable (a0 : IVec ⟨2, ![2, 1600000]⟩ 32)
variable (x : FVec Ideal ⟨2, ![100000, 2]⟩ .f32) (w1 : FVec Ideal ⟨2, ![2, 64]⟩ .f32) (b1 : FVec Ideal ⟨1, ![64]⟩ .f32)
  (w2 : FVec Ideal ⟨2, ![64, 128]⟩ .f32) (b2 : FVec Ideal ⟨1, ![128]⟩ .f32)

/-- The kernel's result: aggregate, then multiply, per layer. -/
theorem kernel_form :
    Cert.KernelIdeal.Val.result a0 x w1 b1 w2 b2
      = lrelu (addRow (mm (kAgg64 a0 (lrelu (addRow (mm (kAgg2 a0 x) w1) (asRow b1)))) w2) (asRow b2)) := by
  unfold Cert.KernelIdeal.Val.result Cert.KernelIdeal.Val.hidden1 layer
  rw [Cert.HostLayers.reshape_asRow, Cert.HostLayers.reshape_asRow]
  rfl

/-- The reference's result: multiply, then aggregate, per layer. -/
theorem ref_form :
    Cert.ReferenceIdeal.RefRun.result (F := Ideal) a0 x w1 b1 w2 b2
      = lrelu (addRow (rAgg128 a0 (mm (lrelu (addRow (rAgg64 a0 (mm x w1)) (asRow b1))) w2)) (asRow b2)) := by
  unfold Cert.ReferenceIdeal.RefRun.result Cert.ReferenceIdeal.RefRun.conv2 Cert.ReferenceIdeal.RefRun.conv1
    Cert.ReferenceIdeal.RefRun.leaky1 Cert.ReferenceIdeal.RefRun.leaky2 Cert.ReferenceIdeal.RefRun.lin1
    Cert.ReferenceIdeal.RefRun.lin2
  rw [host_lrelu, host_lrelu, Cert.HostLayers.host_addRow, Cert.HostLayers.host_addRow,
    Cert.HostLayers.hostDot_plain Cert.ReferenceIdeal.dot_S100000x2_S2x64_S100000x64_1_0_0_1_n_n rfl,
    Cert.HostLayers.hostDot_plain Cert.ReferenceIdeal.dot_S100000x64_S64x128_S100000x128_1_0_0_1_n_n rfl]
  rfl

/-- With real inputs the two programs' results are equal. -/
theorem main (hx : ∀ i, x i ≠ ⊤ ∧ x i ≠ ⊥) (hw1 : ∀ i, w1 i ≠ ⊤ ∧ w1 i ≠ ⊥) (hb1 : ∀ i, b1 i ≠ ⊤ ∧ b1 i ≠ ⊥)
    (hw2 : ∀ i, w2 i ≠ ⊤ ∧ w2 i ≠ ⊥) :
    Cert.KernelIdeal.Val.result a0 x w1 b1 w2 b2 = Cert.ReferenceIdeal.RefRun.result (F := Ideal) a0 x w1 b1 w2 b2 := by
  rw [kernel_form, ref_form, mm_kAgg2 a0 x w1 hx hw1,
    mm_kAgg64 a0 _ w2 (hidden_finite a0 x w1 b1 hx hw1 hb1) hw2]

end Cert.Bridge

end
-- ==== Proof.lean ====
/-
  The certificate's claim.

  The three frames: the kernel's and the idealized kernel's are the generated frame certificates (two pipelined
  regions among host operations); the reference is a host program, and its frame is its run with the result dropped.
  The idealization rewrote nothing, so `preserves` is trivial.

  The algebraic claim.  At the exact instance both programs are two graph-convolution layers over the same
  edges, self loops added, each edge weighted by the inverse square roots of its end points' degrees.  Per layer
  the reference multiplies the node features by the weight matrix and then aggregates the products along the
  edges; the kernel aggregates the narrower features first and multiplies afterwards, inside its pipelined region,
  where it also adds the bias and applies the leaky rectifier.  A finite sum of products of real numbers may be
  regrouped, so `(agg X) · W = agg (X · W)` once the entries are real: the inputs are by the precondition, every
  edge weight is whatever the degrees are, and the first layer's result is because each piece of a layer keeps
  real numbers real.  The kernel's run ends with its result buffer at the fold of its four segments, read as one
  term of the arguments; the reference's run ends at its operations' composed term; the two terms are equal.
-/
import proofs.«150885_j26809185861879_2_alg».proof.Defs
import proofs.«150885_j26809185861879_2_alg».proof.Proof.Gen.Kernel
import proofs.«150885_j26809185861879_2_alg».proof.Proof.Gen.Kernel.Skeleton
import proofs.«150885_j26809185861879_2_alg».proof.Proof.Gen.Kernel.Launch
import proofs.«150885_j26809185861879_2_alg».proof.Proof.Gen.Kernel.Points
import proofs.«150885_j26809185861879_2_alg».proof.Proof.Gen.Kernel.Frame
import proofs.«150885_j26809185861879_2_alg».proof.Proof.Gen.KernelIdeal
import proofs.«150885_j26809185861879_2_alg».proof.Proof.Gen.KernelIdeal.Skeleton
import proofs.«150885_j26809185861879_2_alg».proof.Proof.Gen.KernelIdeal.Launch
import proofs.«150885_j26809185861879_2_alg».proof.Proof.Gen.KernelIdeal.Points
import proofs.«150885_j26809185861879_2_alg».proof.Proof.Gen.KernelIdeal.Frame
import proofs.«150885_j26809185861879_2_alg».proof.Proof.Gen.ReferenceIdeal
import proofs.«150885_j26809185861879_2_alg».proof.Proof.Gen.Pre_finite_inputs
import proofs.«150885_j26809185861879_2_alg».proof.Proof.KernelRun
import proofs.«150885_j26809185861879_2_alg».proof.Proof.KernelResult
import proofs.«150885_j26809185861879_2_alg».proof.Proof.RefRun
import proofs.«150885_j26809185861879_2_alg».proof.Proof.Finite
import proofs.«150885_j26809185861879_2_alg».proof.Proof.BridgeMain
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run (F := Ideal) m ρ)

/-- Both idealized programs run, and end with equal results, from memories that agree on the arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Val.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run (Cert.KernelIdeal.defs (F := Ideal)) _ _).mono
      (fun r h c => ⟨(h c).1.trans (Cert.KernelIdeal.Val.result_eq m ρ c), (h c).2⟩)
      (Cert.KernelIdeal.Run.run_main m ρ)
  · refine (θ_run (Cert.ReferenceIdeal.defs (F := Ideal)) _ _).mono (fun r h c => ⟨(h c).1.trans ?_, (h c).2⟩)
      (Cert.ReferenceIdeal.RefRun.run (F := Ideal) m' ρ')
    obtain ⟨e0, e1, e2, e3, e4, e5⟩ := hagree c
    obtain ⟨hx, hw1, hb1, hw2, hb2⟩ := Cert.Finite.of_pre _ _ _ _ _ _ (hpre c)
    rw [e0, e1, e2, e3, e4, e5]
    exact (Cert.Bridge.main _ _ _ _ _ _ hx hw1 hb1 hw2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
